-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x768 : Shape := ⟨2, ![768, 768]⟩
abbrev S768 : Shape := ⟨1, ![768]⟩
abbrev S_ : Shape := ⟨0, ![]⟩
abbrev S1x1x768 : Shape := ⟨3, ![1, 1, 768]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S768x768_S4x2048x768_2_1_01_0_n_n_wf : DotDims.WF S4x2048x768 S768x768 S4x2048x768 [2] [1] [0, 1] [0] [] []

variable [Facts]

def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def fn_part4 {F : FTy → Type} [FloatOps F] (main_arg0 : FVec F S4x2048x768 .f32) (main_arg5 : FVec F S768x768 .f32) (main_arg6 : FVec F S768 .f32) (main_v69 : IVec S_ 1) : IVec S_ 1 :=
  let main_cst_24 : FVec F S_ .f32 := constant S_ .f32 0x00000000#32
  let main_v70 : FVec F S768x768 .f32 := broadcastInDim S768x768 ![] bcast_S_S768x768 main_cst_24
  let main_v71 : FVec F S768x768 .f32 := maximumf main_arg5 main_v70
  let main_cst_25 : FVec F S_ .f32 := constant S_ .f32 0x3D4CCCCD#32
  let main_v72 : FVec F S768x768 .f32 := broadcastInDim S768x768 ![] bcast_S_S768x768 main_cst_25
  let main_v73 : FVec F S768x768 .f32 := mulf main_v72 main_v71
  let main_v74 : FVec F S768x768 .f32 := addf main_arg5 main_v73
  let main_cst_26 : FVec F S_ .f32 := constant S_ .f32 0x00000000#32
  let main_v75 : FVec F S768 .f32 := broadcastInDim S768 ![] bcast_S_S768 main_cst_26
  let main_v76 : FVec F S768 .f32 := maximumf main_arg6 main_v75
  let main_cst_27 : FVec F S_ .f32 := constant S_ .f32 0x3D4CCCCD#32
  let main_v77 : FVec F S768 .f32 := broadcastInDim S768 ![] bcast_S_S768 main_cst_27
  let main_v78 : FVec F S768 .f32 := mulf main_v77 main_v76
  let main_v79 : FVec F S768 .f32 := addf main_arg6 main_v78
  let main_v80 : FVec F S4x2048x768 .f32 := (fun l r => Host.dotGeneral dot_S4x2048x768_S768x768_S4x2048x768_2_1_01_0_n_n none l r) main_arg0 main_v74
  let main_v81 : FVec F S1x1x768 .f32 := broadcastInDim S1x1x768 ![2] bcast_S768_S1x1x768_2 main_v79
  let main_v82 : FVec F S4x2048x768 .f32 := broadcastInDim S4x2048x768 ![0, 1, 2] bcast_S1x1x768_S4x2048x768_0_1_2 main_v81
  let main_v83 : FVec F S4x2048x768 .f32 := addf main_v80 main_v82
  let main_cst_28 : FVec F S_ .f32 := constant S_ .f32 0x00000000#32
  let main_v84 : FVec F S4x2048x768 .f32 := broadcastInDim S4x2048x768 ![] bcast_S_S4x2048x768 main_cst_28
  let main_v85 : IVec S4x2048x768 1 := cmpf .une main_v83 main_v84
  let main_c_29 : IVec S_ 1 := constantI S_ 1 1#1
  let main_v86 : IVec S_ 1 := (fun x v => Host.reduce IntOp.andi x v reducesTo_S4x2048x768_S_d0_1_2 h_S_) main_v85 main_c_29
  let main_v87 : IVec S_ 1 := andi main_v69 main_v86
  main_v87

def fn_part3 {F : FTy → Type} [FloatOps F] (main_arg0 : FVec F S4x2048x768 .f32) (main_arg3 : FVec F S768x768 .f32) (main_arg4 : FVec F S768 .f32) (main_arg5 : FVec F S768x768 .f32) (main_arg6 : FVec F S768 .f32) (main_v51 : IVec S_ 1) : IVec S_ 1 :=
  let main_cst_18 : FVec F S_ .f32 := constant S_ .f32 0x00000000#32
  let main_v52 : FVec F S768x768 .f32 := broadcastInDim S768x768 ![] bcast_S_S768x768 main_cst_18
  let main_v53 : FVec F S768x768 .f32 := maximumf main_arg3 main_v52
  let main_cst_19 : FVec F S_ .f32 := constant S_ .f32 0x3D4CCCCD#32
  let main_v54 : FVec F S768x768 .f32 := broadcastInDim S768x768 ![] bcast_S_S768x768 main_cst_19
  let main_v55 : FVec F S768x768 .f32 := mulf main_v54 main_v53
  let main_v56 : FVec F S768x768 .f32 := addf main_arg3 main_v55
  let main_cst_20 : FVec F S_ .f32 := constant S_ .f32 0x00000000#32
  let main_v57 : FVec F S768 .f32 := broadcastInDim S768 ![] bcast_S_S768 main_cst_20
  let main_v58 : FVec F S768 .f32 := maximumf main_arg4 main_v57
  let main_cst_21 : FVec F S_ .f32 := constant S_ .f32 0x3D4CCCCD#32
  let main_v59 : FVec F S768 .f32 := broadcastInDim S768 ![] bcast_S_S768 main_cst_21
  let main_v60 : FVec F S768 .f32 := mulf main_v59 main_v58
  let main_v61 : FVec F S768 .f32 := addf main_arg4 main_v60
  let main_v62 : FVec F S4x2048x768 .f32 := (fun l r => Host.dotGeneral dot_S4x2048x768_S768x768_S4x2048x768_2_1_01_0_n_n none l r) main_arg0 main_v56
  let main_v63 : FVec F S1x1x768 .f32 := broadcastInDim S1x1x768 ![2] bcast_S768_S1x1x768_2 main_v61
  let main_v64 : FVec F S4x2048x768 .f32 := broadcastInDim S4x2048x768 ![0, 1, 2] bcast_S1x1x768_S4x2048x768_0_1_2 main_v63
  let main_v65 : FVec F S4x2048x768 .f32 := addf main_v62 main_v64
  let main_cst_22 : FVec F S_ .f32 := constant S_ .f32 0x00000000#32
  let main_v66 : FVec F S4x2048x768 .f32 := broadcastInDim S4x2048x768 ![] bcast_S_S4x2048x768 main_cst_22
  let main_v67 : IVec S4x2048x768 1 := cmpf .une main_v65 main_v66
  let main_c_23 : IVec S_ 1 := constantI S_ 1 1#1
  let main_v68 : IVec S_ 1 := (fun x v => Host.reduce IntOp.andi x v reducesTo_S4x2048x768_S_d0_1_2 h_S_) main_v67 main_c_23
  let main_v69 : IVec S_ 1 := andi main_v51 main_v68
  fn_part4 (F := F) main_arg0 main_arg5 main_arg6 main_v69

def fn_part2 {F : FTy → Type} [FloatOps F] (main_arg0 : FVec F S4x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_v33 : IVec S_ 1) : IVec S_ 1 :=
  let main_cst_12 : FVec F S_ .f32 := constant S_ .f32 0x00000000#32
  let main_v34 : FVec F S768x768 .f32 := broadcastInDim S768x768 ![] bcast_S_S768x768 main_cst_12
  let main_v35 : FVec F S768x768 .f32 := maximumf main_arg1 main_v34
  let main_cst_13 : FVec F S_ .f32 := constant S_ .f32 0x3D4CCCCD#32
  let main_v36 : FVec F S768x768 .f32 := broadcastInDim S768x768 ![] bcast_S_S768x768 main_cst_13
  let main_v37 : FVec F S768x768 .f32 := mulf main_v36 main_v35
  let main_v38 : FVec F S768x768 .f32 := addf main_arg1 main_v37
  let main_cst_14 : FVec F S_ .f32 := constant S_ .f32 0x00000000#32
  let main_v39 : FVec F S768 .f32 := broadcastInDim S768 ![] bcast_S_S768 main_cst_14
  let main_v40 : FVec F S768 .f32 := maximumf main_arg2 main_v39
  let main_cst_15 : FVec F S_ .f32 := constant S_ .f32 0x3D4CCCCD#32
  let main_v41 : FVec F S768 .f32 := broadcastInDim S768 ![] bcast_S_S768 main_cst_15
  let main_v42 : FVec F S768 .f32 := mulf main_v41 main_v40
  let main_v43 : FVec F S768 .f32 := addf main_arg2 main_v42
  let main_v44 : FVec F S4x2048x768 .f32 := (fun l r => Host.dotGeneral dot_S4x2048x768_S768x768_S4x2048x768_2_1_01_0_n_n none l r) main_arg0 main_v38
  let main_v45 : FVec F S1x1x768 .f32 := broadcastInDim S1x1x768 ![2] bcast_S768_S1x1x768_2 main_v43
  let main_v46 : FVec F S4x2048x768 .f32 := broadcastInDim S4x2048x768 ![0, 1, 2] bcast_S1x1x768_S4x2048x768_0_1_2 main_v45
  let main_v47 : FVec F S4x2048x768 .f32 := addf main_v44 main_v46
  let main_cst_16 : FVec F S_ .f32 := constant S_ .f32 0x00000000#32
  let main_v48 : FVec F S4x2048x768 .f32 := broadcastInDim S4x2048x768 ![] bcast_S_S4x2048x768 main_cst_16
  let main_v49 : IVec S4x2048x768 1 := cmpf .une main_v47 main_v48
  let main_c_17 : IVec S_ 1 := constantI S_ 1 1#1
  let main_v50 : IVec S_ 1 := (fun x v => Host.reduce IntOp.andi x v reducesTo_S4x2048x768_S_d0_1_2 h_S_) main_v49 main_c_17
  let main_v51 : IVec S_ 1 := andi main_v33 main_v50
  fn_part3 (F := F) main_arg0 main_arg3 main_arg4 main_arg5 main_arg6 main_v51

def fn_part1 {F : FTy → Type} [FloatOps F] (main_arg0 : FVec F S4x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg0 main_arg1 main_arg2 main_arg3 main_arg4 main_arg5 main_arg6 main_v33

def fn {F : FTy → Type} [FloatOps F] (main_arg0 : FVec F S4x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg0 main_arg1 main_arg2 main_arg3 main_arg4 main_arg5 main_arg6 main_v13 main_v16
-- ==== Kernel.lean ====
abbrev S4x2048x768 : Shape := ⟨3, ![4, 2048, 768]⟩
abbrev S768x768 : Shape := ⟨2, ![768, 768]⟩
abbrev S768 : Shape := ⟨1, ![768]⟩
abbrev S8192x768 : Shape := ⟨2, ![8192, 768]⟩
abbrev S768x2304 : Shape := ⟨2, ![768, 2304]⟩
abbrev S2304 : Shape := ⟨1, ![2304]⟩
abbrev S8192x2304 : Shape := ⟨2, ![8192, 2304]⟩
abbrev S512x768 : Shape := ⟨2, ![512, 768]⟩
abbrev S512x2304 : Shape := ⟨2, ![512, 2304]⟩
abbrev S1x2304 : Shape := ⟨2, ![1, 2304]⟩
abbrev S4x2048x2304 : Shape := ⟨3, ![4, 2048, 2304]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S8192x768, .f32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S768x2304, .f32⟩
  | .hbm, ⟨12, _⟩ => ⟨S768x2304, .bf16⟩
  | .hbm, ⟨13, _⟩ => ⟨S2304, .f32⟩
  | .hbm, ⟨14, _⟩ => ⟨S8192x2304, .bf16⟩
  | .hbm, ⟨15, _⟩ => ⟨S4x2048x2304, .bf16⟩
  | .hbm, ⟨16, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S2304, .f32⟩
  | .local _ .vmem, ⟨4, _⟩ => ⟨S512x2304, .bf16⟩
  | .local _ .vmem, ⟨5, _⟩ => ⟨S512x2304, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x512x128, .f32⟩
  | .local _ .vmem, ⟨13, _⟩ => ⟨S1x512x128, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 6], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg2 c6_i32
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg2 c12_i32
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S4x2048x768_S8192x768 : S4x2048x768.ShapeCasts S8192x768
  transposes_S768x768_S768x768_1_0 : S768x768.Transposes [1, 0] S768x768
  concatenates_S768x768_S768x768_S768x768_S768x2304_d1 : Shape.Concatenates [S768x768, S768x768, S768x768] S768x2304 1
  bitsLt_bf16_f32 : FTy.bits .bf16 < FTy.bits .f32
  concatenates_S768_S768_S768_S2304_d0 : Shape.Concatenates [S768, S768, S768] S2304 0
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  shapeCasts_S2304_S2304 : S2304.ShapeCasts S2304
  shapeCasts_S2304_S1x2304 : S2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S8192x2304_S4x2048x2304 : S8192x2304.ShapeCasts S4x2048x2304
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  dot_S512x768_S768x2304_S512x2304_1_0_0_1_n_n_wf : DotDims.WF S512x768 S768x2304 S512x2304 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S8192x2304.size a
  hwx0_3 : ∀ i : grid0.Coords, EltTy.bits .bf16 = 32 ∨ (Rect.block (s := S8192x2304) S512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x2304.size a
  hwx1_0 : ∀ i : grid1.Coords, EltTy.bits .bf16 = 32 ∨ (Rect.block (s := S4x2048x2304) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x2304.size a
  hwx1_1 : ∀ i : grid1.Coords, EltTy.bits .bf16 = 32 ∨ (Rect.block (s := S4x2048x2304) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x2304.size a
  hwx1_2 : ∀ i : grid1.Coords, EltTy.bits .bf16 = 32 ∨ (Rect.block (s := S4x2048x2304) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x768.size a
  hwx1_3 : ∀ i : grid1.Coords, EltTy.bits .f32 = 32 ∨ (Rect.block (s := S4x2048x768) S1x512x128.size (cc1_transform_3 i) (hinb1_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x768 : Shape := ⟨3, ![4, 2048, 768]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩

abbrev nBuf : Space → Nat
  | .hbm => 106
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S4x2048x768, .f32⟩
  | .hbm, ⟨8, _⟩ => ⟨S1x1x768, .f32⟩
  | .hbm, ⟨9, _⟩ => ⟨S4x2048x768, .f32⟩
  | .hbm, ⟨10, _⟩ => ⟨S4x2048x768, .f32⟩
  | .hbm, ⟨11, _⟩ => ⟨S_, .f32⟩
  | .hbm, ⟨12, _⟩ => ⟨S768x768, .f32⟩
  | .hbm, ⟨13, _⟩ => ⟨S768x768, .f32⟩
  | .hbm, ⟨14, _⟩ => ⟨S_, .f32⟩
  | .hbm, ⟨15, _⟩ => ⟨S768x768, .f32⟩
  | .hbm, ⟨16, _⟩ => ⟨S768x768, .f32⟩
  | .hbm, ⟨17, _⟩ => ⟨S768x768, .f32⟩
  | .hbm, ⟨18, _⟩ => ⟨S_, .f32⟩
  | .hbm, ⟨19, _⟩ => ⟨S768, .f32⟩
  | .hbm, ⟨20, _⟩ => ⟨S768, .f32⟩
  | .hbm, ⟨21, _⟩ => ⟨S_, .f32⟩
  | .hbm, ⟨22, _⟩ => ⟨S768, .f32⟩
  | .hbm, ⟨23, _⟩ => ⟨S768, .f32⟩
  | .hbm, ⟨24, _⟩ => ⟨S768, .f32⟩
  | .hbm, ⟨25, _⟩ => ⟨S4x2048x768, .f32⟩
  | .hbm, ⟨26, _⟩ => ⟨S1x1x768, .f32⟩
  | .hbm, ⟨27, _⟩ => ⟨S4x2048x768, .f32⟩
  | .hbm, ⟨28, _⟩ => ⟨S4x2048x768, .f32⟩
  | .hbm, ⟨29, _⟩ => ⟨S4x2048x768, .f32⟩
  | .hbm, ⟨30, _⟩ => ⟨S4x2048x768, .f32⟩
  | .hbm, ⟨31, _⟩ => ⟨S4x2048x12x64, .f32⟩
  | .hbm, ⟨32, _⟩ => ⟨S4x12x2048x64, .f32⟩
  | .hbm, ⟨33, _⟩ => ⟨S4x2048x768, .f32⟩
  | .hbm, ⟨34, _⟩ => ⟨S1x1x768, .f32⟩
  | .hbm, ⟨35, _⟩ => ⟨S4x2048x768, .f32⟩
  | .hbm, ⟨36, _⟩ => ⟨S4x2048x768, .f32⟩
  | .hbm, ⟨37, _⟩ => ⟨S_, .f32⟩
  | .hbm, ⟨38, _⟩ => ⟨S768x768, .f32⟩
  | .hbm, ⟨39, _⟩ => ⟨S768x768, .f32⟩
  | .hbm, ⟨40, _⟩ => ⟨S_, .f32⟩
  | .hbm, ⟨41, _⟩ => ⟨S768x768, .f32⟩
  | .hbm, ⟨42, _⟩ => ⟨S768x768, .f32⟩
  | .hbm, ⟨43, _⟩ => ⟨S768x768, .f32⟩
  | .hbm, ⟨44, _⟩ => ⟨S_, .f32⟩
  | .hbm, ⟨45, _⟩ => ⟨S768, .f32⟩
  | .hbm, ⟨46, _⟩ => ⟨S768, .f32⟩
  | .hbm, ⟨47, _⟩ => ⟨S_, .f32⟩
  | .hbm, ⟨48, _⟩ => ⟨S768, .f32⟩
  | .hbm, ⟨49, _⟩ => ⟨S768, .f32⟩
  | .hbm, ⟨50, _⟩ => ⟨S768, .f32⟩
  | .hbm, ⟨51, _⟩ => ⟨S4x2048x768, .f32⟩
  | .hbm, ⟨52, _⟩ => ⟨S1x1x768, .f32⟩
  | .hbm, ⟨53, _⟩ => ⟨S4x2048x768, .f32⟩
  | .hbm, ⟨54, _⟩ => ⟨S4x2048x768, .f32⟩
  | .hbm, ⟨55, _⟩ => ⟨S4x2048x768, .f32⟩
  | .hbm, ⟨56, _⟩ => ⟨S4x2048x768, .f32⟩
  | .hbm, ⟨57, _⟩ => ⟨S4x2048x12x64, .f32⟩
  | .hbm, ⟨58, _⟩ => ⟨S4x12x2048x64, .f32⟩
  | .hbm, ⟨59, _⟩ => ⟨S4x2048x768, .f32⟩
  | .hbm, ⟨60, _⟩ => ⟨S1x1x768, .f32⟩
  | .hbm, ⟨61, _⟩ => ⟨S4x2048x768, .f32⟩
  | .hbm, ⟨62, _⟩ => ⟨S4x2048x768, .f32⟩
  | .hbm, ⟨63, _⟩ => ⟨S_, .f32⟩
  | .hbm, ⟨64, _⟩ => ⟨S768x768, .f32⟩
  | .hbm, ⟨65, _⟩ => ⟨S768x768, .f32⟩
  | .hbm, ⟨66, _⟩ => ⟨S_, .f32⟩
  | .hbm, ⟨67, _⟩ => ⟨S768x768, .f32⟩
  | .hbm, ⟨68, _⟩ => ⟨S768x768, .f32⟩
  | .hbm, ⟨69, _⟩ => ⟨S768x768, .f32⟩
  | .hbm, ⟨70, _⟩ => ⟨S_, .f32⟩
  | .hbm, ⟨71, _⟩ => ⟨S768, .f32⟩
  | .hbm, ⟨72, _⟩ => ⟨S768, .f32⟩
  | .hbm, ⟨73, _⟩ => ⟨S_, .f32⟩
  | .hbm, ⟨74, _⟩ => ⟨S768, .f32⟩
  | .hbm, ⟨75, _⟩ => ⟨S768, .f32⟩
  | .hbm, ⟨76, _⟩ => ⟨S768, .f32⟩
  | .hbm, ⟨77, _⟩ => ⟨S4x2048x768, .f32⟩
  | .hbm, ⟨78, _⟩ => ⟨S1x1x768, .f32⟩
  | .hbm, ⟨79, _⟩ => ⟨S4x2048x768, .f32⟩
  | .hbm, ⟨80, _⟩ => ⟨S4x2048x768, .f32⟩
  | .hbm, ⟨81, _⟩ => ⟨S4x2048x768, .f32⟩
  | .hbm, ⟨82, _⟩ => ⟨S4x2048x768, .f32⟩
  | .hbm, ⟨83, _⟩ => ⟨S4x2048x12x64, .f32⟩
  | .hbm, ⟨84, _⟩ => ⟨S4x12x2048x64, .f32⟩
  | .hbm, ⟨85, _⟩ => ⟨S4x12x2048x2048, .f32⟩
  | .hbm, ⟨86, _⟩ => ⟨S_, .f32⟩
  | .hbm, ⟨87, _⟩ => ⟨S4x12x2048x2048, .f32⟩
  | .hbm, ⟨88, _⟩ => ⟨S4x12x2048x2048, .f32⟩
  | .hbm, ⟨89, _⟩ => ⟨S_, .f32⟩
  | .hbm, ⟨90, _⟩ => ⟨S4x12x2048, .f32⟩
  | .hbm, ⟨91, _⟩ => ⟨S_, .f32⟩
  | .hbm, ⟨92, _⟩ => ⟨S4x12x2048, .f32⟩
  | .hbm, ⟨93, _⟩ => ⟨S4x12x2048, .f32⟩
  | .hbm, ⟨94, _⟩ => ⟨S4x12x2048x1, .f32⟩
  | .hbm, ⟨95, _⟩ => ⟨S4x12x2048x2048, .f32⟩
  | .hbm, ⟨96, _⟩ => ⟨S4x12x2048x2048, .f32⟩
  | .hbm, ⟨97, _⟩ => ⟨S4x12x2048x2048, .f32⟩
  | .hbm, ⟨98, _⟩ => ⟨S_, .f32⟩
  | .hbm, ⟨99, _⟩ => ⟨S4x12x2048, .f32⟩
  | .hbm, ⟨100, _⟩ => ⟨S4x12x2048x1, .f32⟩
  | .hbm, ⟨101, _⟩ => ⟨S4x12x2048x2048, .f32⟩
  | .hbm, ⟨102, _⟩ => ⟨S4x12x2048x2048, .f32⟩
  | .hbm, ⟨103, _⟩ => ⟨S4x12x2048x64, .f32⟩
  | .hbm, ⟨104, _⟩ => ⟨S4x2048x12x64, .f32⟩
  | .hbm, ⟨105, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  bcast_S_S768x768 : S_.BroadcastsInDim S768x768 (![] : Fin 0 → Fin S768x768.rank)
  bcast_S_S768 : S_.BroadcastsInDim S768 (![] : Fin 0 → Fin S768.rank)
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S4x2048x768_S768x768_S4x2048x768_2_1_01_0_n_n_wf : DotDims.WF S4x2048x768 S768x768 S4x2048x768 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.KI.R0.lean ====
/-
  The first pallas_call (the fused projection x · W_cat + b_cat, sixteen row tiles of 512 rows), at a PARAMETER `V`: the
  contents of the TensorCore's buffers when the call is entered.  A window's block at a grid point is the array read
  through the block's rectangle; the body loads the three input blocks whole, and stores ONE value, the projection of
  the row tile, over the whole output block — so after the body the output's staging buffer holds that value and each
  input's its block.  From this the body's Hoare triple, the pipeline's proof data and the body obligation at every point.
-/
import proofs.«118081_j7292854469092_2_alg».proof.Proof.Gen.KernelIdeal.Launch
import proofs.«118081_j7292854469092_2_alg».proof.Proof.Gen.KernelIdeal.Skeleton
import proofs.«118081_j7292854469092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the block
    index has not moved, and the body leaves an input's block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the block
    index has not moved, and the body leaves an input's block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the block
    index has not moved, and the body leaves an input's block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block loaded or stored whole -/

abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S2304 := Rect.unit (s := S2304) ![0] S2304.size inb_S2304_S2304_0
abbrev r0_3 : Rect S512x2304 := Rect.unit (s := S512x2304) ![0, 0] S512x2304.size inb_S512x2304_S512x2304_0_0

/-! ## What the body leaves in the output window's buffer -/

/-- The output block after the body: its one store, the projection of the loaded row tile. -/
def out0_3 (x0 : Vec F S512x768 .f32) (x1 : Vec F S768x2304 .bf16) (x2 : Vec F S2304 .f32) : Vec F S512x2304 .bf16 :=
  View.canon [⟨r0_3, k0_pay1 (View.ld x0 r0_0) (View.ld x1 r0_1) (View.ld x2 r0_2)⟩]

/-- The one store covers the block. -/
theorem cover0_3 (p0 : Vec F S512x2304 .bf16) (y : S512x2304.Idx) :
    ∃ pc ∈ ([⟨r0_3, p0⟩] : List (View.Piece (Elt F) S512x2304 .bf16)), y ∈ pc.1.set :=
  View.cover_of_tiled [⟨r0_3, p0⟩] S512x2304.size (by rfl) y

/-! ## The body's triple -/

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords) (arg1 : Memref sig .tc .vmem S512x768 .f32) (harg1 : arg1.IsWhole) (arg2 : Memref sig .tc .vmem S768x2304 .bf16) (harg2 : arg2.IsWhole) (arg3 : Memref sig .tc .vmem S2304 .f32) (harg3 : arg3.IsWhole) (arg4 : Memref sig .tc .vmem S512x2304 .bf16) (harg4 : arg4.IsWhole)
    (x0 : Vec F S512x768 .f32) (x1 : Vec F S768x2304 .bf16) (x2 : Vec F S2304 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the call finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and each window's current staging buffer
    whole at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  The second pallas_call (attention over the packed projections: 4 batches × 4 query tiles of 512 rows × 6 pairs of heads),
  at a PARAMETER `V`: the contents of the TensorCore's buffers when the call is entered.  Its three input windows — a
  query tile, and the whole key and value columns of the head pair — read ONE array, the packed projections, so the core
  holds that array in three disjoint shares, one per window.  The body loads the three blocks whole and stores ONE value
  (the two heads' attention outputs side by side) over the whole output block.
-/
import proofs.«118081_j7292854469092_2_alg».proof.Proof.Gen.KernelIdeal.Launch
import proofs.«118081_j7292854469092_2_alg».proof.Proof.Gen.KernelIdeal.Skeleton
import proofs.«118081_j7292854469092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the block
    index has not moved, and the body leaves an input's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the block
    index has not moved, and the body leaves an input's block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the block
    index has not moved, and the body leaves an input's block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each block loaded or stored whole -/

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0

/-! ## What the body leaves in the output window's buffer -/

/-- The output block after the body: its one store, the two heads' attention outputs joined along the columns. -/
def out1_3 (x0 : Vec F S1x512x128 .bf16) (x1 : Vec F S1x2048x128 .bf16) (x2 : Vec F S1x2048x128 .bf16) : Vec F S1x512x128 .f32 :=
  View.canon [⟨r1_q, k1_pay1 (k1_pay5 (View.ld x0 r1_q) (View.ld x1 r1_kv) (View.ld x2 r1_kv)) (k1_pay7 (View.ld x0 r1_q) (View.ld x1 r1_kv))
    (k1_pay8 (View.ld x0 r1_q) (View.ld x1 r1_kv) (View.ld x2 r1_kv))⟩]

/-- The one store covers the block. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

/-! ## The body's triple -/

set_option maxHeartbeats 2000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The pipeline's proof data -/

/-- The share of the packed projections each input window holds: the left half, and the two halves of the right half. -/
def q1 : Fin cfg1.W → PosShare TreeShare
  | ⟨0, _⟩ => fullShare.left
  | ⟨1, _⟩ => fullShare.right.left
  | ⟨2, _⟩ => fullShare.right.right
  | ⟨3, _⟩ => fullShare

/-- The proof data of the second pipeline on core `c`: the arrays as the call finds them; after the body at point `t` each
    input's buffer at its block and the output's at `out1_3` of the input blocks; the invariant the scoped rest and the
    generator register, untouched; nothing owed; the one input array in three disjoint shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's dues, and each window's current staging buffer
    whole at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Arr1.lean ====
/-
  The second pallas_call's arrays as separation-logic resources.  Its four windows stand on TWO buffers: the packed
  projections (read by the query, key and value windows) and the result.  Held whole at the full share, the first splits
  into three disjoint shares — the left half, and the two halves of the right half — one per input window, and the three
  shares join back into the whole; the result's buffer goes to its one window as it is.
-/
import proofs.«118081_j7292854469092_2_alg».proof.Proof.Gen.KernelIdeal.Launch
import proofs.«118081_j7292854469092_2_alg».proof.Proof.Gen.KernelIdeal.Skeleton
import proofs.«118081_j7292854469092_2_alg».proof.Proof.Gen.KernelIdeal.Points
import proofs.«118081_j7292854469092_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the four windows' arrays. -/
theorem arrs1 : Finset.univ.image (Pipeline.arrRef spec1) = ([main_v8, main_v9] : List (Ref sig .tc)).toFinset := by decide

/-- Those buffers, each whole at the full share, as a pair. -/
theorem arrBufs1_eq (c : Dev nD) (W : (b : Ref sig .tc) → Buf (Elt F) ((c : Thread nD τ).loc b)) :
    (Pipeline.arrBufs spec1 c W : sProp 𝕄)
      = iprop((((c : Thread nD τ).loc main_v8) ↦{fullShare} W main_v8) ∗ (((c : Thread nD τ).loc main_v9) ↦{fullShare} W main_v9)) := by
  unfold Pipeline.arrBufs
  exact bigSep_eq_bigSepL_of_eq [main_v8, main_v9] arrs1 (by decide) _

/-- The pipeline's arrays, window by window, at the shares the proof data names. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v8) ↦{fullShare.left} Fn 0) ∗ (((c : Thread nD τ).loc main_v8) ↦{fullShare.right.left} Fn 1)
          ∗ (((c : Thread nD τ).loc main_v8) ↦{fullShare.right.right} Fn 2) ∗ (((c : Thread nD τ).loc main_v9) ↦{fullShare} Fn 3)) := by
  unfold Dat.arrays
  rw [bigSep_W1, (arr_whole1 0).set_eq_univ, (arr_whole1 3).set_eq_univ]
  rfl

/-- ENTRY: the two buffers whole at `W` make the pipeline's arrays at contents that are `W`'s. -/
theorem arrays1_of_bufs (c : Dev nD) (W : (b : Ref sig .tc) → Buf (Elt F) ((c : Thread nD τ).loc b))
    (Fn : (w : Fin cfg1.W) → Buf (Elt F) ((cfg1.win w).arr.view.loc (c : Thread nD τ)))
    (h0 : Fn 0 = W main_v8) (h1 : Fn 1 = W main_v8) (h2 : Fn 2 = W main_v8) (h3 : Fn 3 = W main_v9) :
    (Pipeline.arrBufs spec1 c W : sProp 𝕄) ⊢ (dat1 V c).arrays Fn := by
  rw [arrBufs1_eq, arrays1_eq, h0, h1, h2, h3]
  iintro ⟨H8, H9⟩
  ihave H8' := (pointsTo_share (PosShare.mem_left_op_right fullShare)).1 $$ H8
  icases H8' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H9

/-- EXIT: the pipeline's arrays at contents that are `W`'s make the two buffers whole at `W`. -/
theorem bufs_of_arrays1 (c : Dev nD) (W : (b : Ref sig .tc) → Buf (Elt F) ((c : Thread nD τ).loc b))
    (Fn : (w : Fin cfg1.W) → Buf (Elt F) ((cfg1.win w).arr.view.loc (c : Thread nD τ)))
    (h0 : Fn 0 = W main_v8) (h1 : Fn 1 = W main_v8) (h2 : Fn 2 = W main_v8) (h3 : Fn 3 = W main_v9) :
    ((dat1 V c).arrays Fn : sProp 𝕄) ⊢ Pipeline.arrBufs spec1 c W := by
  rw [arrBufs1_eq, arrays1_eq, h0, h1, h2, h3]
  iintro ⟨Ha, Hb1, Hb2, H9⟩
  isplitr [H9]
  swap; · iexact H9
  iapply (pointsTo_share (PosShare.mem_left_op_right fullShare)).2
  isplitl [Ha]; · iexact Ha
  iapply (pointsTo_share (PosShare.mem_left_op_right fullShare.right)).2
  isplitl [Hb1]; · iexact Hb1
  iexact Hb2

end Cert.KernelIdeal.Fr

end
-- ==== Proof.KI.Run.lean ====
/-
  The whole run of @main: a stretch of host operations (a reshape of x, the three transposed weights joined and rounded,
  the three biases joined), the projection call, one host reshape, the attention call.  The buffers' contents at each
  boundary are a fold from the launch memory: a host stretch applies its operations; a call leaves its output array at
  what its write-backs make of it and everything else as it was.  Each call is a segment entered from "every unscoped
  buffer whole at the boundary's contents" and left at the next boundary's; chained from the launch, every weakly fair
  execution terminates with every unscoped buffer at the last boundary's contents — in particular every argument as
  launched, and the result array at what the attention call's write-backs leave.
-/
import proofs.«118081_j7292854469092_2_alg».proof.Proof.Gen.KernelIdeal.Launch
import proofs.«118081_j7292854469092_2_alg».proof.Proof.Gen.KernelIdeal.Skeleton
import proofs.«118081_j7292854469092_2_alg».proof.Proof.Gen.KernelIdeal.Points
import proofs.«118081_j7292854469092_2_alg».proof.Proof.Gen.KernelIdeal.Regions
import proofs.«118081_j7292854469092_2_alg».proof.Proof.KI.R0
import proofs.«118081_j7292854469092_2_alg».proof.Proof.KI.R1
import proofs.«118081_j7292854469092_2_alg».proof.Proof.KI.Arr1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention call's exit: the result array at what the pipeline leaves; every other buffer — the packed projections
    its three input windows read among them — as entered. -/
def W4 (c : Dev nD) : Valuation τ sig (Elt F) :=
  Function.update (W3 m ρ c) (Proc.devRef .tc main_v9) ((dat1 (V3 m ρ) c).arrAt 3 cfg1.N)
theorem W4_v9 (c : Dev nD) : W4 m ρ c (Proc.devRef .tc main_v9) = (dat1 (V3 m ρ) c).arrAt 3 cfg1.N := by
  unfold W4; exact Function.update_self _ _ _
theorem W4_of_ne (c : Dev nD) (b : Ref sig .tc) (hb : b ≠ main_v9) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
/-- An input window's array ends as the call found it. -/
theorem hF1_in (c : Dev nD) (w : Fin cfg1.W) (hin : (cfg1.win w).isOut = false) (hw : Pipeline.arrRef spec1 w = main_v8) :
    (dat1 (V3 m ρ) c).arrAt w cfg1.N = (dat1 (V3 m ρ) c).A w :=
  (dat1 (V3 m ρ) c).arrAt_in w hin _
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e ▸ rfl⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((dat1 (V3 m ρ) c).arrays (fun w => (dat1 (V3 m ρ) c).arrAt w 0) ∗ Pipeline.unscopedRest spec1 c (V3 m ρ c)) := by
      rw [Pipeline.unscopedBufs_split₀ cfgs 1 (fun w => by revert w; decide) c (V3 m ρ c)]
      exact sep_mono (arrays1_of_bufs (V3 m ρ) c (V3 m ρ c) (fun w => (dat1 (V3 m ρ) c).arrAt w 0) rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (V3 m ρ) c).arrays (fun w => (dat1 (V3 m ρ) c).arrAt w cfg1.N) ∗ Pipeline.unscopedRest spec1 c (V3 m ρ c))
        ⊢ (unscopedBufs c (V4 m ρ c) : sProp 𝕄) := by
      rw [Pipeline.unscopedBufs_split₀ cfgs 1 (fun w => by revert w; decide) c (V4 m ρ c)]
      refine sep_mono (bufs_of_arrays1 (V3 m ρ) c (V4 m ρ c) (fun w => (dat1 (V3 m ρ) c).arrAt w cfg1.N)
        (((dat1 (V3 m ρ) c).arrAt_in 0 rfl _).trans (W4_of_ne m ρ c main_v8 (by decide)).symm)
        (((dat1 (V3 m ρ) c).arrAt_in 1 rfl _).trans (W4_of_ne m ρ c main_v8 (by decide)).symm)
        (((dat1 (V3 m ρ) c).arrAt_in 2 rfl _).trans (W4_of_ne m ρ c main_v8 (by decide)).symm)
        (W4_v9 m ρ c).symm) (Entails.of_eq ?_)
      unfold Pipeline.unscopedRest
      exact bigSep_congr fun b hb => by rw [hrest1 m ρ c b (Finset.mem_sdiff.mp hb).2]
    have hjoin : iprop((pdats m ρ 1 c).arrays ((pdats m ρ 1 c).arrAt · cfg1.N) ∗ Pipeline.unscopedRest spec1 c (V3 m ρ c))
        ⊢ (unscopedBufs c (V4 m ρ c) : sProp 𝕄) := hjoin
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Fr

end
-- ==== Proof.KI.Claims.lean ====
/-
  What the run gives the certificate: the frame (every argument array ends as launched) and the value (the result array
  ends at what the attention call's write-backs leave, beside the arguments unchanged).
-/
import proofs.«118081_j7292854469092_2_alg».proof.Proof.Gen.KernelIdeal.Launch
import proofs.«118081_j7292854469092_2_alg».proof.Proof.Gen.KernelIdeal.Skeleton
import proofs.«118081_j7292854469092_2_alg».proof.Proof.Gen.KernelIdeal.Points
import proofs.«118081_j7292854469092_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

/-- THE RUN WITH ITS RESULT NAMED: the result array ends at the attention call's last write-back over the contents the call
    found, and the arguments as launched. -/
theorem run_result : θ_run defs (onTc (τ := τ) (main (F := F))) ⟨m, fun _ => 0, ρ⟩ (fun r => ∀ c : Dev nD,
      r.2.mem ((c.tc : Thread nD τ).loc main_v9) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v9 (by decide))).trans (W4_v9 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.KernelIdeal.Fr

end
-- ==== Proof.KB.R0.lean ====
/-
  The first pallas_call (the fused projection x · W_cat + b_cat, sixteen row tiles of 512 rows), at a PARAMETER `V`: the
  contents of the TensorCore's buffers when the call is entered.  A window's block at a grid point is the array read
  through the block's rectangle; the body loads the three input blocks whole, and stores ONE value, the projection of
  the row tile, over the whole output block — so after the body the output's staging buffer holds that value and each
  input's its block.  From this the body's Hoare triple, the pipeline's proof data and the body obligation at every point.
-/
import proofs.«118081_j7292854469092_2_alg».proof.Proof.Gen.Kernel.Launch
import proofs.«118081_j7292854469092_2_alg».proof.Proof.Gen.Kernel.Skeleton
import proofs.«118081_j7292854469092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the block
    index has not moved, and the body leaves an input's block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the block
    index has not moved, and the body leaves an input's block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the block
    index has not moved, and the body leaves an input's block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block loaded or stored whole -/

abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S2304 := Rect.unit (s := S2304) ![0] S2304.size inb_S2304_S2304_0
abbrev r0_3 : Rect S512x2304 := Rect.unit (s := S512x2304) ![0, 0] S512x2304.size inb_S512x2304_S512x2304_0_0

/-! ## What the body leaves in the output window's buffer -/

/-- The output block after the body: its one store, the projection of the loaded row tile. -/
def out0_3 (x0 : Vec F S512x768 .f32) (x1 : Vec F S768x2304 .bf16) (x2 : Vec F S2304 .f32) : Vec F S512x2304 .bf16 :=
  View.canon [⟨r0_3, k0_pay1 (View.ld x0 r0_0) (View.ld x1 r0_1) (View.ld x2 r0_2)⟩]

/-- The one store covers the block. -/
theorem cover0_3 (p0 : Vec F S512x2304 .bf16) (y : S512x2304.Idx) :
    ∃ pc ∈ ([⟨r0_3, p0⟩] : List (View.Piece (Elt F) S512x2304 .bf16)), y ∈ pc.1.set :=
  View.cover_of_tiled [⟨r0_3, p0⟩] S512x2304.size (by rfl) y

/-! ## The body's triple -/

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords) (arg1 : Memref sig .tc .vmem S512x768 .f32) (harg1 : arg1.IsWhole) (arg2 : Memref sig .tc .vmem S768x2304 .bf16) (harg2 : arg2.IsWhole) (arg3 : Memref sig .tc .vmem S2304 .f32) (harg3 : arg3.IsWhole) (arg4 : Memref sig .tc .vmem S512x2304 .bf16) (harg4 : arg4.IsWhole)
    (x0 : Vec F S512x768 .f32) (x1 : Vec F S768x2304 .bf16) (x2 : Vec F S2304 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the call finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and each window's current staging buffer
    whole at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.R1.lean ====
/-
  The second pallas_call (attention over the packed projections: 4 batches × 4 query tiles of 512 rows × 6 pairs of heads),
  at a PARAMETER `V`: the contents of the TensorCore's buffers when the call is entered.  Its three input windows — a
  query tile, and the whole key and value columns of the head pair — read ONE array, the packed projections, so the core
  holds that array in three disjoint shares, one per window.  The body loads the three blocks whole and stores ONE value
  (the two heads' attention outputs side by side) over the whole output block.
-/
import proofs.«118081_j7292854469092_2_alg».proof.Proof.Gen.Kernel.Launch
import proofs.«118081_j7292854469092_2_alg».proof.Proof.Gen.Kernel.Skeleton
import proofs.«118081_j7292854469092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the block
    index has not moved, and the body leaves an input's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the block
    index has not moved, and the body leaves an input's block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the block
    index has not moved, and the body leaves an input's block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each block loaded or stored whole -/

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0

/-! ## What the body leaves in the output window's buffer -/

/-- The output block after the body: its one store, the two heads' attention outputs joined along the columns. -/
def out1_3 (x0 : Vec F S1x512x128 .bf16) (x1 : Vec F S1x2048x128 .bf16) (x2 : Vec F S1x2048x128 .bf16) : Vec F S1x512x128 .f32 :=
  View.canon [⟨r1_q, k1_pay1 (k1_pay5 (View.ld x0 r1_q) (View.ld x1 r1_kv) (View.ld x2 r1_kv)) (k1_pay7 (View.ld x0 r1_q) (View.ld x1 r1_kv))
    (k1_pay8 (View.ld x0 r1_q) (View.ld x1 r1_kv) (View.ld x2 r1_kv))⟩]

/-- The one store covers the block. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

/-! ## The body's triple -/

set_option maxHeartbeats 2000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The pipeline's proof data -/

/-- The share of the packed projections each input window holds: the left half, and the two halves of the right half. -/
def q1 : Fin cfg1.W → PosShare TreeShare
  | ⟨0, _⟩ => fullShare.left
  | ⟨1, _⟩ => fullShare.right.left
  | ⟨2, _⟩ => fullShare.right.right
  | ⟨3, _⟩ => fullShare

/-- The proof data of the second pipeline on core `c`: the arrays as the call finds them; after the body at point `t` each
    input's buffer at its block and the output's at `out1_3` of the input blocks; the invariant the scoped rest and the
    generator register, untouched; nothing owed; the one input array in three disjoint shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's dues, and each window's current staging buffer
    whole at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Arr1.lean ====
/-
  The second pallas_call's arrays as separation-logic resources.  Its four windows stand on TWO buffers: the packed
  projections (read by the query, key and value windows) and the result.  Held whole at the full share, the first splits
  into three disjoint shares — the left half, and the two halves of the right half — one per input window, and the three
  shares join back into the whole; the result's buffer goes to its one window as it is.
-/
import proofs.«118081_j7292854469092_2_alg».proof.Proof.Gen.Kernel.Launch
import proofs.«118081_j7292854469092_2_alg».proof.Proof.Gen.Kernel.Skeleton
import proofs.«118081_j7292854469092_2_alg».proof.Proof.Gen.Kernel.Points
import proofs.«118081_j7292854469092_2_alg».proof.Proof.KB.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the four windows' arrays. -/
theorem arrs1 : Finset.univ.image (Pipeline.arrRef spec1) = ([main_v8, main_v9] : List (Ref sig .tc)).toFinset := by decide

/-- Those buffers, each whole at the full share, as a pair. -/
theorem arrBufs1_eq (c : Dev nD) (W : (b : Ref sig .tc) → Buf (Elt F) ((c : Thread nD τ).loc b)) :
    (Pipeline.arrBufs spec1 c W : sProp 𝕄)
      = iprop((((c : Thread nD τ).loc main_v8) ↦{fullShare} W main_v8) ∗ (((c : Thread nD τ).loc main_v9) ↦{fullShare} W main_v9)) := by
  unfold Pipeline.arrBufs
  exact bigSep_eq_bigSepL_of_eq [main_v8, main_v9] arrs1 (by decide) _

/-- The pipeline's arrays, window by window, at the shares the proof data names. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v8) ↦{fullShare.left} Fn 0) ∗ (((c : Thread nD τ).loc main_v8) ↦{fullShare.right.left} Fn 1)
          ∗ (((c : Thread nD τ).loc main_v8) ↦{fullShare.right.right} Fn 2) ∗ (((c : Thread nD τ).loc main_v9) ↦{fullShare} Fn 3)) := by
  unfold Dat.arrays
  rw [bigSep_W1, (arr_whole1 0).set_eq_univ, (arr_whole1 3).set_eq_univ]
  rfl

/-- ENTRY: the two buffers whole at `W` make the pipeline's arrays at contents that are `W`'s. -/
theorem arrays1_of_bufs (c : Dev nD) (W : (b : Ref sig .tc) → Buf (Elt F) ((c : Thread nD τ).loc b))
    (Fn : (w : Fin cfg1.W) → Buf (Elt F) ((cfg1.win w).arr.view.loc (c : Thread nD τ)))
    (h0 : Fn 0 = W main_v8) (h1 : Fn 1 = W main_v8) (h2 : Fn 2 = W main_v8) (h3 : Fn 3 = W main_v9) :
    (Pipeline.arrBufs spec1 c W : sProp 𝕄) ⊢ (dat1 V c).arrays Fn := by
  rw [arrBufs1_eq, arrays1_eq, h0, h1, h2, h3]
  iintro ⟨H8, H9⟩
  ihave H8' := (pointsTo_share (PosShare.mem_left_op_right fullShare)).1 $$ H8
  icases H8' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H9

/-- EXIT: the pipeline's arrays at contents that are `W`'s make the two buffers whole at `W`. -/
theorem bufs_of_arrays1 (c : Dev nD) (W : (b : Ref sig .tc) → Buf (Elt F) ((c : Thread nD τ).loc b))
    (Fn : (w : Fin cfg1.W) → Buf (Elt F) ((cfg1.win w).arr.view.loc (c : Thread nD τ)))
    (h0 : Fn 0 = W main_v8) (h1 : Fn 1 = W main_v8) (h2 : Fn 2 = W main_v8) (h3 : Fn 3 = W main_v9) :
    ((dat1 V c).arrays Fn : sProp 𝕄) ⊢ Pipeline.arrBufs spec1 c W := by
  rw [arrBufs1_eq, arrays1_eq, h0, h1, h2, h3]
  iintro ⟨Ha, Hb1, Hb2, H9⟩
  isplitr [H9]
  swap; · iexact H9
  iapply (pointsTo_share (PosShare.mem_left_op_right fullShare)).2
  isplitl [Ha]; · iexact Ha
  iapply (pointsTo_share (PosShare.mem_left_op_right fullShare.right)).2
  isplitl [Hb1]; · iexact Hb1
  iexact Hb2

end Cert.Kernel.Fr

end
-- ==== Proof.KB.Run.lean ====
/-
  The whole run of @main: a stretch of host operations (a reshape of x, the three transposed weights joined and rounded,
  the three biases joined), the projection call, one host reshape, the attention call.  The buffers' contents at each
  boundary are a fold from the launch memory: a host stretch applies its operations; a call leaves its output array at
  what its write-backs make of it and everything else as it was.  Each call is a segment entered from "every unscoped
  buffer whole at the boundary's contents" and left at the next boundary's; chained from the launch, every weakly fair
  execution terminates with every unscoped buffer at the last boundary's contents — in particular every argument as
  launched, and the result array at what the attention call's write-backs leave.
-/
import proofs.«118081_j7292854469092_2_alg».proof.Proof.Gen.Kernel.Launch
import proofs.«118081_j7292854469092_2_alg».proof.Proof.Gen.Kernel.Skeleton
import proofs.«118081_j7292854469092_2_alg».proof.Proof.Gen.Kernel.Points
import proofs.«118081_j7292854469092_2_alg».proof.Proof.Gen.Kernel.Regions
import proofs.«118081_j7292854469092_2_alg».proof.Proof.KB.R0
import proofs.«118081_j7292854469092_2_alg».proof.Proof.KB.R1
import proofs.«118081_j7292854469092_2_alg».proof.Proof.KB.Arr1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention call's exit: the result array at what the pipeline leaves; every other buffer — the packed projections
    its three input windows read among them — as entered. -/
def W4 (c : Dev nD) : Valuation τ sig (Elt F) :=
  Function.update (W3 m ρ c) (Proc.devRef .tc main_v9) ((dat1 (V3 m ρ) c).arrAt 3 cfg1.N)
theorem W4_v9 (c : Dev nD) : W4 m ρ c (Proc.devRef .tc main_v9) = (dat1 (V3 m ρ) c).arrAt 3 cfg1.N := by
  unfold W4; exact Function.update_self _ _ _
theorem W4_of_ne (c : Dev nD) (b : Ref sig .tc) (hb : b ≠ main_v9) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
/-- An input window's array ends as the call found it. -/
theorem hF1_in (c : Dev nD) (w : Fin cfg1.W) (hin : (cfg1.win w).isOut = false) (hw : Pipeline.arrRef spec1 w = main_v8) :
    (dat1 (V3 m ρ) c).arrAt w cfg1.N = (dat1 (V3 m ρ) c).A w :=
  (dat1 (V3 m ρ) c).arrAt_in w hin _
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e ▸ rfl⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((dat1 (V3 m ρ) c).arrays (fun w => (dat1 (V3 m ρ) c).arrAt w 0) ∗ Pipeline.unscopedRest spec1 c (V3 m ρ c)) := by
      rw [Pipeline.unscopedBufs_split₀ cfgs 1 (fun w => by revert w; decide) c (V3 m ρ c)]
      exact sep_mono (arrays1_of_bufs (V3 m ρ) c (V3 m ρ c) (fun w => (dat1 (V3 m ρ) c).arrAt w 0) rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (V3 m ρ) c).arrays (fun w => (dat1 (V3 m ρ) c).arrAt w cfg1.N) ∗ Pipeline.unscopedRest spec1 c (V3 m ρ c))
        ⊢ (unscopedBufs c (V4 m ρ c) : sProp 𝕄) := by
      rw [Pipeline.unscopedBufs_split₀ cfgs 1 (fun w => by revert w; decide) c (V4 m ρ c)]
      refine sep_mono (bufs_of_arrays1 (V3 m ρ) c (V4 m ρ c) (fun w => (dat1 (V3 m ρ) c).arrAt w cfg1.N)
        (((dat1 (V3 m ρ) c).arrAt_in 0 rfl _).trans (W4_of_ne m ρ c main_v8 (by decide)).symm)
        (((dat1 (V3 m ρ) c).arrAt_in 1 rfl _).trans (W4_of_ne m ρ c main_v8 (by decide)).symm)
        (((dat1 (V3 m ρ) c).arrAt_in 2 rfl _).trans (W4_of_ne m ρ c main_v8 (by decide)).symm)
        (W4_v9 m ρ c).symm) (Entails.of_eq ?_)
      unfold Pipeline.unscopedRest
      exact bigSep_congr fun b hb => by rw [hrest1 m ρ c b (Finset.mem_sdiff.mp hb).2]
    have hjoin : iprop((pdats m ρ 1 c).arrays ((pdats m ρ 1 c).arrAt · cfg1.N) ∗ Pipeline.unscopedRest spec1 c (V3 m ρ c))
        ⊢ (unscopedBufs c (V4 m ρ c) : sProp 𝕄) := hjoin
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Fr

end
-- ==== Proof.KB.Claims.lean ====
/-
  What the run gives the certificate: the frame (every argument array ends as launched) and the value (the result array
  ends at what the attention call's write-backs leave, beside the arguments unchanged).
-/
import proofs.«118081_j7292854469092_2_alg».proof.Proof.Gen.Kernel.Launch
import proofs.«118081_j7292854469092_2_alg».proof.Proof.Gen.Kernel.Skeleton
import proofs.«118081_j7292854469092_2_alg».proof.Proof.Gen.Kernel.Points
import proofs.«118081_j7292854469092_2_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

/-- THE RUN WITH ITS RESULT NAMED: the result array ends at the attention call's last write-back over the contents the call
    found, and the arguments as launched. -/
theorem run_result : θ_run defs (onTc (τ := τ) (main (F := F))) ⟨m, fun _ => 0, ρ⟩ (fun r => ∀ c : Dev nD,
      r.2.mem ((c.tc : Thread nD τ).loc main_v9) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v9 (by decide))).trans (W4_v9 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.Kernel.Fr

end
-- ==== Proof.RefRead.lean ====
/-
  The reference's run read one operation at a time (the generated read-at-an-index lemmas), re-exported for the
  modules that state what the reference computes.
-/
import proofs.«118081_j7292854469092_2_alg».proof.Proof.Gen.ReferenceIdeal.Run
import proofs.«118081_j7292854469092_2_alg».proof.Proof.Gen.ReferenceIdeal.Read
-- ==== Proof.Spec.lean ====
/-
  What both programs compute, as ONE function of the seven argument arrays over the extended reals.

  A projection is `x · Wᵀ + b`: entry (n, s, o) is the sum over d of x(n, s, d) · W(o, d), plus b(o).
  Column c of a projection belongs to head c / 64 at depth c % 64.  For a batch n, a head h and a query row q the
  score against key row k is the depth-sum of Q(n, q, ·) · K(n, k, ·) over the head's 64 columns, times 1/8; the row
  maximum is taken over all 2048 keys; the weight of key k is exp(score − maximum); and the result at (n, q, column
  of (h, d)) is the weighted sum of V(n, k, ·) over the keys, divided by the sum of the weights.
-/
import Idealize.ShloMosaic.PureOps.Ideal
import Idealize.ShloMosaic.Lib.ValueIdx

noncomputable section

namespace Cert.Attn

open Idealize.ShloMosaic Idealize.ShloMosaic.ValueIdx

abbrev Sx : Shape := ⟨3, ![4, 2048, 768]⟩
abbrev Sw : Shape := ⟨2, ![768, 768]⟩
abbrev Sb : Shape := ⟨1, ![768]⟩

/-- One linear projection `x · Wᵀ + b`, entry by entry. -/
def proj (x : Sx.Idx → EReal) (W : Sw.Idx → EReal) (b : Sb.Idx → EReal) (n : Fin 4) (s : Fin 2048) (o : Fin 768) : EReal :=
  (∑ d : Fin 768, x (ix3 n s d) * W (ix2 o d)) + b (ix1 o)

/-- The column of head `h` at depth `d`. -/
def col (h : Fin 12) (d : Fin 64) : Fin 768 := ⟨h.val * 64 + d.val, by omega⟩

/-- The score scale 1/8, as the f32 word the kernel multiplies by. -/
def eighth : EReal := Ideal.ofBits .f32 0x3E000000#32

/-- The scaled scores of one query row (its 64 depths) against every key row. -/
def scoreRow (qrow : Fin 64 → EReal) (krows : Fin 2048 → Fin 64 → EReal) (k : Fin 2048) : EReal :=
  (∑ d : Fin 64, qrow d * krows k d) * eighth

/-- The largest score of a query row over all keys (from −∞). -/
def rowMax (qrow : Fin 64 → EReal) (krows : Fin 2048 → Fin 64 → EReal) : EReal :=
  (Finset.univ : Finset (Fin 2048)).fold max ⊥ (scoreRow qrow krows)

/-- The unnormalised softmax weight of key `k`. -/
def weight (qrow : Fin 64 → EReal) (krows : Fin 2048 → Fin 64 → EReal) (k : Fin 2048) : EReal :=
  Ideal.exp (scoreRow qrow krows k - rowMax qrow krows)

/-- Attention for one query row of one head at one output depth: the weighted sum of that depth's value column over the
    keys, divided by the sum of the weights. -/
def attnRow (qrow : Fin 64 → EReal) (krows : Fin 2048 → Fin 64 → EReal) (vcol : Fin 2048 → EReal) : EReal :=
  Ideal.div (∑ k : Fin 2048, weight qrow krows k * vcol k) (∑ k : Fin 2048, weight qrow krows k)

/-- Attention for head `h` of batch `n`, query row `q`, depth `d`, from the three projections. -/
def attn (Q K V : Fin 4 → Fin 2048 → Fin 768 → EReal) (n : Fin 4) (q : Fin 2048) (h : Fin 12) (d : Fin 64) : EReal :=
  attnRow (fun d' => Q n q (col h d')) (fun k d' => K n k (col h d')) (fun k => V n k (col h d))

/-- The whole result array as a function of the seven arguments. -/
def result (x : Sx.Idx → EReal) (Wq : Sw.Idx → EReal) (bq : Sb.Idx → EReal) (Wk : Sw.Idx → EReal) (bk : Sb.Idx → EReal)
    (Wv : Sw.Idx → EReal) (bv : Sb.Idx → EReal) : Sx.Idx → EReal := fun i =>
  attn (proj x Wq bq) (proj x Wk bk) (proj x Wv bv) ⟨(i 0).val, (i 0).isLt⟩ ⟨(i 1).val, (i 1).isLt⟩
    ⟨(i 2).val / 64, Nat.div_lt_of_lt_mul (i 2).isLt⟩ ⟨(i 2).val % 64, Nat.mod_lt _ (by decide)⟩

end Cert.Attn

end
-- ==== Proof.RefSide.Consts.lean ====
/-
  The float words the reference carries, as extended reals: 8, 1/8, the two infinities, and the rule
  "dividing by 8 is multiplying by 1/8", which holds for every extended real.
-/
import Idealize.ShloMosaic.PureOps.Ideal.Laws
import proofs.«118081_j7292854469092_2_alg».proof.Proof.Spec

noncomputable section

namespace Cert.RefSide

open Idealize.ShloMosaic

/-- The word 0x41000000 is the real number 8. -/
theorem ofBits_eight : Ideal.ofBits .f32 0x41000000#32 = ((8 : ℝ) : EReal) := by
  simp [Ideal.ofBits, Ideal.ieee, -EReal.coe_mul]; norm_num

/-- The word 0x3E000000 is the real number 1/8. -/
theorem eighth_eq : Cert.Attn.eighth = (((1 / 8 : ℝ)) : EReal) := by
  unfold Cert.Attn.eighth
  simp [Ideal.ofBits, Ideal.ieee, -EReal.coe_mul]; norm_num

/-- The word 0xFF800000 is −∞. -/
theorem ofBits_neg_inf : Ideal.ofBits .f32 0xFF800000#32 = ⊥ := by
  simp [Ideal.ofBits, Ideal.ieee]

/-- The word 0x7F800000 is +∞. -/
theorem ofBits_pos_inf : Ideal.ofBits .f32 0x7F800000#32 = ⊤ := by
  simp [Ideal.ofBits, Ideal.ieee]

/-- The word 0x3D4CCCCD (the float nearest 0.05) is a real number. -/
theorem ofBits_gamma_real : ∃ r : ℝ, Ideal.ofBits .f32 0x3D4CCCCD#32 = (r : EReal) :=
  ⟨_, (EReal.coe_toReal (by simp [Ideal.ofBits, Ideal.ieee, -EReal.coe_mul])
    (by simp [Ideal.ofBits, Ideal.ieee, -EReal.coe_mul])).symm⟩

/-- Dividing by 8 is multiplying by 1/8, on every extended real. -/
theorem div_eight (a : EReal) : Ideal.div a (Ideal.ofBits .f32 0x41000000#32) = a * Cert.Attn.eighth := by
  rw [ofBits_eight, eighth_eq]
  exact Ideal.div_coe (by norm_num) a

end Cert.RefSide

end
-- ==== Proof.RefSide.Softmax.lean ====
/-
  The row law of softmax attention over the extended reals.

  For real scores s_k and real values v_k, with M the maximum of the scores, p_k = exp (s_k − M) and l = ∑ p_k > 0:
  normalising the weights first and then averaging, ∑_k (p_k / l) · v_k, is the same as averaging with the
  unnormalised weights and dividing once, (∑_k p_k · v_k) / l.  The reference does the former (and takes the maximum
  once more against −∞, and starts its sum of weights from 0); the specification states the latter.
-/
import Idealize.ShloMosaic.PureOps.Ideal.Laws
import proofs.«118081_j7292854469092_2_alg».proof.Proof.Spec
import proofs.«118081_j7292854469092_2_alg».proof.Proof.RefSide.Consts

noncomputable section

namespace Cert.RefSide

open Idealize.ShloMosaic

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases max_choice a b with h | h <;> rw [h] <;> assumption

theorem isReal_zero : IsReal 0 := ⟨0, EReal.coe_zero.symm⟩

theorem isReal_coe (r : ℝ) : IsReal (r : EReal) := ⟨r, rfl⟩

/-- A finite sum of reals is a real. -/
theorem IsReal.sum {ι : Type} (t : Finset ι) (f : ι → EReal) (h : ∀ i ∈ t, IsReal (f i)) : IsReal (∑ i ∈ t, f i) := by
  classical
  induction t using Finset.induction_on with
  | empty => rw [Finset.sum_empty]; exact isReal_zero
  | insert a t ha ih =>
    rw [Finset.sum_insert ha]
    exact (h a (Finset.mem_insert_self a t)).add (ih fun i hi => h i (Finset.mem_insert_of_mem hi))

/-- The coercion of a finite real sum is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum, from −∞, of finitely many reals (at least one) is a real. -/
theorem isReal_fold_max {ι : Type} (t : Finset ι) (f : ι → EReal) (h : ∀ i ∈ t, IsReal (f i)) (hne : t.Nonempty) :
    IsReal (t.fold max ⊥ f) := by
  classical
  induction t using Finset.induction_on with
  | empty => exact absurd hne Finset.not_nonempty_empty
  | insert a t ha ih =>
    rw [Finset.fold_insert ha]
    rcases t.eq_empty_or_nonempty with rfl | hne'
    · rw [Finset.fold_empty, max_eq_left bot_le]; exact h a (Finset.mem_insert_self a _)
    · exact (h a (Finset.mem_insert_self a t)).max (ih (fun i hi => h i (Finset.mem_insert_of_mem hi)) hne')

/-- The scaled score of a real query row against real key rows is a real. -/
theorem isReal_scoreRow (qrow : Fin 64 → EReal) (krows : Fin 2048 → Fin 64 → EReal) (hq : ∀ d, IsReal (qrow d))
    (hk : ∀ k d, IsReal (krows k d)) (k : Fin 2048) : IsReal (Cert.Attn.scoreRow qrow krows k) := by
  unfold Cert.Attn.scoreRow
  refine IsReal.mul (IsReal.sum _ _ fun d _ => (hq d).mul (hk k d)) ?_
  rw [eighth_eq]; exact isReal_coe _

/-- The row law: normalise-then-average (as the reference spells it: the maximum taken once more against −∞, the sum
    of the weights started from 0) equals average-then-divide. -/
theorem softmax_row (S v : Fin 2048 → EReal) (hS : ∀ k, IsReal (S k)) (hv : ∀ k, IsReal (v k)) :
    (∑ k : Fin 2048,
        Ideal.div (Ideal.exp (S k - max ⊥ ((Finset.univ : Finset (Fin 2048)).fold max ⊥ S)))
          (0 + ∑ k' : Fin 2048, Ideal.exp (S k' - max ⊥ ((Finset.univ : Finset (Fin 2048)).fold max ⊥ S))) * v k)
      = Ideal.div (∑ k : Fin 2048, Ideal.exp (S k - (Finset.univ : Finset (Fin 2048)).fold max ⊥ S) * v k)
          (∑ k : Fin 2048, Ideal.exp (S k - (Finset.univ : Finset (Fin 2048)).fold max ⊥ S)) := by
  obtain ⟨m, hm⟩ := isReal_fold_max Finset.univ S (fun k _ => hS k) ⟨0, Finset.mem_univ _⟩
  rw [max_eq_right bot_le, zero_add, hm]
  choose s hs using hS
  choose w hw using hv
  have hp : ∀ k, Ideal.exp (S k - (m : EReal)) = ((Real.exp (s k - m) : ℝ) : EReal) := fun k => by
    rw [hs k, ← EReal.coe_sub]; rfl
  simp only [hp, hw]
  have hl : (∑ k : Fin 2048, ((Real.exp (s k - m) : ℝ) : EReal)) = ((∑ k : Fin 2048, Real.exp (s k - m) : ℝ) : EReal) :=
    (coe_sum _ _).symm
  have hpos : (∑ k : Fin 2048, Real.exp (s k - m)) ≠ 0 :=
    ne_of_gt (Finset.sum_pos (fun k _ => Real.exp_pos _) ⟨0, Finset.mem_univ _⟩)
  rw [hl]
  simp only [Ideal.div_coe hpos, ← EReal.coe_mul]
  rw [← coe_sum, ← coe_sum, ← EReal.coe_mul, Finset.sum_mul]
  refine congrArg _ (Finset.sum_congr rfl fun k _ => ?_)
  ring

/-- The same, stated against the specification's row. -/
theorem softmax_attnRow (qrow : Fin 64 → EReal) (krows : Fin 2048 → Fin 64 → EReal) (vcol : Fin 2048 → EReal)
    (hq : ∀ d, IsReal (qrow d)) (hk : ∀ k d, IsReal (krows k d)) (hv : ∀ k, IsReal (vcol k)) :
    (∑ k : Fin 2048,
        Ideal.div (Ideal.exp (Cert.Attn.scoreRow qrow krows k - max ⊥ (Cert.Attn.rowMax qrow krows)))
          (0 + ∑ k' : Fin 2048, Ideal.exp (Cert.Attn.scoreRow qrow krows k' - max ⊥ (Cert.Attn.rowMax qrow krows))) * vcol k)
      = Cert.Attn.attnRow qrow krows vcol :=
  softmax_row (Cert.Attn.scoreRow qrow krows) vcol (isReal_scoreRow qrow krows hq hk) hv

end Cert.RefSide

end
-- ==== Proof.RefSide.PreFacts.lean ====
/-
  What the precondition gives: every entry of the seven argument arrays is a real number, and for each of the three
  projections the γ-modified value  x · Wgᵀ + bg  (Wg = W + γ·max(W, 0), bg = b + γ·max(b, 0))  is nonzero at every
  index.  The precondition is a conjunction of ten `all`s; each is read back to its elements.
-/
import Idealize.ShloMosaic.Lib.ReduceAll
import Idealize.ShloMosaic.Lib.IdealHost
import Idealize.ShloMosaic.Lib.ValueIdx
import proofs.«118081_j7292854469092_2_alg».proof.Proof.Gen.Pre_finite_inputs
import proofs.«118081_j7292854469092_2_alg».proof.Proof.RefSide.Softmax

noncomputable section

namespace Cert.RefSide

open Idealize.ShloMosaic Idealize.ShloMosaic.ValueIdx
open Cert.Pre_finite_inputs Cert.Pre_finite_inputs.Facts

instance : Subsingleton Cert.Pre_finite_inputs.S_.Idx := ⟨fun a b => funext fun d => d.elim0⟩

theorem cmp_olt_eq_one {a b : EReal} (h : Ideal.cmp .olt a b = 1#1) : a < b := by
  unfold Ideal.cmp at h
  by_contra hn
  simp [hn] at h

theorem cmp_une_eq_one {a b : EReal} (h : Ideal.cmp .une a b = 1#1) : a ≠ b := by
  unfold Ideal.cmp at h
  intro hab
  simp [hab] at h

/-- An extended real whose absolute value is below +∞ is a real. -/
theorem isReal_of_abs_lt_top (a : EReal) (h : max a (-a) < ⊤) : IsReal a := by
  induction a using EReal.rec with
  | bot => simp at h
  | coe r => exact ⟨r, rfl⟩
  | top => simp at h

/-- The element fact behind one `all(|a| < +∞)`. -/
theorem isReal_of_finite_word (a : EReal)
    (h : FloatOps.cmpf (F := Ideal) (φ := .f32) .olt (FloatOps.hostAbsf (F := Ideal) (φ := .f32) a) (Ideal.ofBits .f32 0x7F800000#32) = 1#1) :
    IsReal a := by
  have h' : max a (-a) < Ideal.ofBits .f32 0x7F800000#32 := cmp_olt_eq_one h
  rw [ofBits_pos_inf] at h'
  exact isReal_of_abs_lt_top a h'

/-- The γ-modified projection  x · Wgᵀ + bg  in the precondition's own spelling. -/
def preZg (x : FVec Ideal S4x2048x768 .f32) (W : FVec Ideal S768x768 .f32) (b : FVec Ideal S768 .f32) : FVec Ideal S4x2048x768 .f32 :=
  addf
    (Host.dotGeneral dot_S4x2048x768_S768x768_S4x2048x768_2_1_01_0_n_n none x
      (addf W (mulf (broadcastInDim S768x768 ![] bcast_S_S768x768 (constant S_ .f32 0x3D4CCCCD#32))
        (maximumf W (broadcastInDim S768x768 ![] bcast_S_S768x768 (constant S_ .f32 0x00000000#32))))))
    (broadcastInDim S4x2048x768 ![0, 1, 2] bcast_S1x1x768_S4x2048x768_0_1_2
      (broadcastInDim S1x1x768 ![2] bcast_S768_S1x1x768_2
        (addf b (mulf (broadcastInDim S768 ![] bcast_S_S768 (constant S_ .f32 0x3D4CCCCD#32))
          (maximumf b (broadcastInDim S768 ![] bcast_S_S768 (constant S_ .f32 0x00000000#32)))))))

/-- Everything the precondition says, element by element. -/
structure PreFacts (x : FVec Ideal S4x2048x768 .f32) (Wq : FVec Ideal S768x768 .f32) (bq : FVec Ideal S768 .f32)
    (Wk : FVec Ideal S768x768 .f32) (bk : FVec Ideal S768 .f32) (Wv : FVec Ideal S768x768 .f32) (bv : FVec Ideal S768 .f32) : Prop where
  x_real : ∀ i, IsReal (x i)
  Wq_real : ∀ i, IsReal (Wq i)
  bq_real : ∀ i, IsReal (bq i)
  Wk_real : ∀ i, IsReal (Wk i)
  bk_real : ∀ i, IsReal (bk i)
  Wv_real : ∀ i, IsReal (Wv i)
  bv_real : ∀ i, IsReal (bv i)
  zq_ne : ∀ i, preZg x Wq bq i ≠ 0
  zk_ne : ∀ i, preZg x Wk bk i ≠ 0
  zv_ne : ∀ i, preZg x Wv bv i ≠ 0

/-- One `all(|a| < +∞)` read back. -/
theorem all_finite {s : Shape} {axes : List (Fin s.rank)} (a : FVec Ideal s .f32) (hb : S_.BroadcastsInDim s ![])
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : IsReal (a i) := by
  have e := Host.reduce_andi_all _ _ hr hu ix0 h i
  rw [cmpf_apply, broadcastInDim_scalar_apply, constant_apply] at e
  exact isReal_of_finite_word (a i) e

/-- One `all(zg ≠ 0)` read back. -/
theorem all_ne_zero (z : FVec Ideal S4x2048x768 .f32)
    (h : Host.reduce IntOp.andi (cmpf .une z (broadcastInDim S4x2048x768 ![] bcast_S_S4x2048x768 (constant (F := Ideal) S_ .f32 0x00000000#32)))
      (constantI S_ 1 1#1) reducesTo_S4x2048x768_S_d0_1_2 h_S_ ix0 = 1#1) (i : S4x2048x768.Idx) : z i ≠ 0 := by
  have e := Host.reduce_andi_all _ _ reducesTo_S4x2048x768_S_d0_1_2 h_S_ ix0 h i
  rw [cmpf_apply, broadcastInDim_scalar_apply, constant_apply, Ideal.ofBits_zero_f32] at e
  exact cmp_une_eq_one e

theorem preFacts (x : FVec Ideal S4x2048x768 .f32) (Wq : FVec Ideal S768x768 .f32) (bq : FVec Ideal S768 .f32)
    (Wk : FVec Ideal S768x768 .f32) (bk : FVec Ideal S768 .f32) (Wv : FVec Ideal S768x768 .f32) (bv : FVec Ideal S768 .f32)
    (hpre : Cert.Pre_finite_inputs.fn (F := Ideal) x Wq bq Wk bk Wv bv = fun _ => 1#1) : PreFacts x Wq bq Wk bk Wv bv := by
  have h := congrFun hpre ix0
  dsimp only [Cert.Pre_finite_inputs.fn, Cert.Pre_finite_inputs.fn_part1, Cert.Pre_finite_inputs.fn_part2,
    Cert.Pre_finite_inputs.fn_part3, Cert.Pre_finite_inputs.fn_part4, andi] at h
  simp only [IntOp.andi_eq_one] at h
  obtain ⟨⟨⟨⟨⟨⟨⟨⟨⟨h0, h1⟩, h2⟩, h3⟩, h4⟩, h5⟩, h6⟩, hq⟩, hk⟩, hv⟩ := h
  exact
    { x_real := all_finite x _ _ _ h0
      Wq_real := all_finite Wq _ _ _ h1
      bq_real := all_finite bq _ _ _ h2
      Wk_real := all_finite Wk _ _ _ h3
      bk_real := all_finite bk _ _ _ h4
      Wv_real := all_finite Wv _ _ _ h5
      bv_real := all_finite bv _ _ _ h6
      zq_ne := all_ne_zero (preZg x Wq bq) hq
      zk_ne := all_ne_zero (preZg x Wk bk) hk
      zv_ne := all_ne_zero (preZg x Wv bv) hv }

end Cert.RefSide

end
-- ==== Proof.RefSide.Proj.lean ====
/-
  The reference's projection stage is the plain linear projection, under the precondition.

  The reference computes each of Q, K, V as  zg · (z / zg)  with  z = x · Wᵀ + b  and  zg = x · Wgᵀ + bg.  When every
  entry of x, W, b is a real, z and zg are reals; when moreover zg ≠ 0 (the precondition says so, in the very
  same operations),  zg · (z / zg) = z.  The three stages are one and the same function of (x, W, b); it is read at
  an index once.  The stage is then followed through the head split (reshape [4,2048,768] → [4,2048,12,64] and
  transpose to [4,12,2048,64]): entry (n, h, s, d) is the projection's entry (n, s, 64·h + d).
-/
import proofs.«118081_j7292854469092_2_alg».proof.Proof.RefRead
import proofs.«118081_j7292854469092_2_alg».proof.Proof.RefSide.PreFacts

noncomputable section

namespace Cert.RefSide

open Idealize.ShloMosaic Idealize.ShloMosaic.ValueIdx
open Cert.ReferenceIdeal Cert.ReferenceIdeal.Read

variable (x : FVec Ideal S4x2048x768 .f32) (W : FVec Ideal S768x768 .f32) (b : FVec Ideal S768 .f32)

/-- The K stage is the Q stage at K's arguments. -/
theorem stageK_eq : val_main_v43 (F := Ideal) x W b = val_main_v21 (F := Ideal) x W b := rfl

/-- The V stage is the Q stage at V's arguments. -/
theorem stageV_eq : val_main_v65 (F := Ideal) x W b = val_main_v21 (F := Ideal) x W b := rfl

/-- The reference's γ-modified projection is the precondition's, operation for operation. -/
theorem zg_eq : val_main_v17 (F := Ideal) x W b = preZg x W b := rfl

theorem lidx_v0_ix (n : Fin 4) (s : Fin 2048) (o k : Fin 768) : lidx_main_v0 (ix3 n s o) k = ix3 n s k :=
  funext fun a => Fin.ext (by match a with | ⟨0, _⟩ => rfl | ⟨1, _⟩ => rfl | ⟨2, _⟩ => rfl)

theorem ridx_v0_ix (n : Fin 4) (s : Fin 2048) (o k : Fin 768) : ridx_main_v0 (ix3 n s o) k = ix2 o k :=
  funext fun a => Fin.ext (by match a with | ⟨0, _⟩ => rfl | ⟨1, _⟩ => rfl)

theorem bidx_v2_ix (n : Fin 4) (s : Fin 2048) (o : Fin 768) : idx_main_v1 (idx_main_v2 (ix3 n s o)) = ix1 o :=
  funext fun a => Fin.ext (by match a with | ⟨0, _⟩ => rfl)

/-- z = x · Wᵀ + b read at an index. -/
theorem z_read (n : Fin 4) (s : Fin 2048) (o : Fin 768) :
    val_main_v3 (F := Ideal) x W b (ix3 n s o) = Cert.Attn.proj x W b n s o := by
  rw [val_main_v3_apply, val_main_v0_apply, val_main_v2_apply, val_main_v1_apply, bidx_v2_ix]
  simp only [lidx_v0_ix, ridx_v0_ix]
  rfl

/-- The projection of reals is a real. -/
theorem isReal_proj (hx : ∀ i, IsReal (x i)) (hW : ∀ i, IsReal (W i)) (hb : ∀ i, IsReal (b i))
    (n : Fin 4) (s : Fin 2048) (o : Fin 768) : IsReal (Cert.Attn.proj x W b n s o) := by
  unfold Cert.Attn.proj
  exact (IsReal.sum _ _ fun d _ => (hx _).mul (hW _)).add (hb _)

theorem isReal_gamma : IsReal (Ideal.ofBits .f32 0x3D4CCCCD#32) := ofBits_gamma_real

/-- Wg = W + γ · max(W, 0) is real where W is. -/
theorem isReal_Wg (hW : ∀ i, IsReal (W i)) (j : S768x768.Idx) : IsReal (val_main_v8 (F := Ideal) W j) := by
  rw [val_main_v8_apply, val_main_v7_apply, val_main_v6_apply, val_main_cst_0_apply, val_main_v5_apply, val_main_v4_apply,
    val_main_cst_apply]
  simp only [Ideal.addf_def, Ideal.mulf_def, Ideal.maximumf_def, Ideal.ofBits_def, Ideal.ofBits_zero_f32]
  exact (hW j).add (isReal_gamma.mul ((hW j).max isReal_zero))

/-- bg = b + γ · max(b, 0) is real where b is. -/
theorem isReal_bg (hb : ∀ i, IsReal (b i)) (j : S768.Idx) : IsReal (val_main_v13 (F := Ideal) b j) := by
  rw [val_main_v13_apply, val_main_v12_apply, val_main_v11_apply, val_main_cst_2_apply, val_main_v10_apply, val_main_v9_apply,
    val_main_cst_1_apply]
  simp only [Ideal.addf_def, Ideal.mulf_def, Ideal.maximumf_def, Ideal.ofBits_def, Ideal.ofBits_zero_f32]
  exact (hb j).add (isReal_gamma.mul ((hb j).max isReal_zero))

/-- zg = x · Wgᵀ + bg is real where x, W, b are. -/
theorem isReal_zg (hx : ∀ i, IsReal (x i)) (hW : ∀ i, IsReal (W i)) (hb : ∀ i, IsReal (b i)) (i : S4x2048x768.Idx) :
    IsReal (val_main_v17 (F := Ideal) x W b i) := by
  rw [val_main_v17_apply, val_main_v14_apply, val_main_v16_apply, val_main_v15_apply]
  exact (IsReal.sum _ _ fun k _ => (hx _).mul (isReal_Wg W hW _)).add (isReal_bg b hb _)

/-- For real z and real nonzero g:  g · (z / g) = z. -/
theorem mul_div_cancel_real {z g : EReal} (hz : IsReal z) (hg : IsReal g) (hne : g ≠ 0) : g * Ideal.div z g = z := by
  obtain ⟨t, rfl⟩ := hz
  obtain ⟨r, rfl⟩ := hg
  have hr : r ≠ 0 := fun h => hne (by rw [h]; rfl)
  rw [Ideal.div_coe hr, ← EReal.coe_mul, ← EReal.coe_mul]
  congr 1
  field_simp

/-- The projection stage  zg · (z / zg)  read at an index: it is z. -/
theorem stage_read (hx : ∀ i, IsReal (x i)) (hW : ∀ i, IsReal (W i)) (hb : ∀ i, IsReal (b i))
    (hne : ∀ i, preZg x W b i ≠ 0) (n : Fin 4) (s : Fin 2048) (o : Fin 768) :
    val_main_v19 (F := Ideal) x W b (ix3 n s o) = Cert.Attn.proj x W b n s o := by
  rw [val_main_v19_apply, val_main_v18_apply, z_read]
  have hg : val_main_v17 (F := Ideal) x W b (ix3 n s o) ≠ 0 := by rw [zg_eq]; exact hne _
  exact mul_div_cancel_real (isReal_proj x W b hx hW hb n s o) (isReal_zg x W b hx hW hb _) hg

/-- The head split read at an index: entry (n, h, s, d) is the stage's entry (n, s, 64·h + d). -/
theorem split_read (n : Fin 4) (h : Fin 12) (s : Fin 2048) (d : Fin 64) :
    val_main_v21 (F := Ideal) x W b (ix4 n h s d) = val_main_v19 (F := Ideal) x W b (ix3 n s (Cert.Attn.col h d)) := by
  rw [val_main_v21_apply, val_main_v20_apply]
  refine congrArg _ (funext fun a => Fin.ext ?_)
  have hn := n.isLt; have hh := h.isLt; have hs := s.isLt; have hd := d.isLt
  match a with
  | ⟨0, _⟩ => show (((n.val * 2048 + s.val) * 12 + h.val) * 64 + d.val) / 1572864 = n.val; omega
  | ⟨1, _⟩ => show (((n.val * 2048 + s.val) * 12 + h.val) * 64 + d.val) / 768 % 2048 = s.val; omega
  | ⟨2, _⟩ => show (((n.val * 2048 + s.val) * 12 + h.val) * 64 + d.val) % 768 = h.val * 64 + d.val; omega

/-- A projection, head-split, under the precondition's facts: entry (n, h, s, d) is  proj (n, s, 64·h + d). -/
theorem head_read (hx : ∀ i, IsReal (x i)) (hW : ∀ i, IsReal (W i)) (hb : ∀ i, IsReal (b i))
    (hne : ∀ i, preZg x W b i ≠ 0) (n : Fin 4) (h : Fin 12) (s : Fin 2048) (d : Fin 64) :
    val_main_v21 (F := Ideal) x W b (ix4 n h s d) = Cert.Attn.proj x W b n s (Cert.Attn.col h d) := by
  rw [split_read, stage_read x W b hx hW hb hne]

end Cert.RefSide

end
-- ==== Proof.RefSide.Attn.lean ====
/-
  The reference's attention chain read at an index, over the three head-split projections.

  With Qh, Kh, Vh the head-split arrays [4, 12, 2048, 64]: the scores are  (∑_d Qh(n,h,q,d) · Kh(n,h,k,d)) / 8, the row
  maximum is the fold of max from −∞ over k (taken once more against −∞), the weights  exp (score − maximum), their
  sum started from 0, the normalised weights  weight / sum, the result  ∑_k normalised(k) · Vh(n,h,k,d); and the
  final transpose and reshape put entry (n, q, c) of the result at head c / 64, depth c % 64.
-/
import proofs.«118081_j7292854469092_2_alg».proof.Proof.RefRead
import proofs.«118081_j7292854469092_2_alg».proof.Proof.RefSide.Softmax

noncomputable section

namespace Cert.RefSide

open Idealize.ShloMosaic Idealize.ShloMosaic.ValueIdx
open Cert.ReferenceIdeal Cert.ReferenceIdeal.Read Cert.ReferenceIdeal.Facts₀

variable (x : FVec Ideal S4x2048x768 .f32) (Wq : FVec Ideal S768x768 .f32) (bq : FVec Ideal S768 .f32)
  (Wk : FVec Ideal S768x768 .f32) (bk : FVec Ideal S768 .f32) (Wv : FVec Ideal S768x768 .f32) (bv : FVec Ideal S768 .f32)

/-- The query row of head `h`, batch `n`, row `q`: its 64 depths. -/
abbrev qrow (n : Fin 4) (h : Fin 12) (q : Fin 2048) : Fin 64 → EReal :=
  fun d => val_main_v21 (F := Ideal) x Wq bq (ix4 n h q d)

/-- The key rows of head `h`, batch `n`. -/
abbrev krows (n : Fin 4) (h : Fin 12) : Fin 2048 → Fin 64 → EReal :=
  fun k d => val_main_v43 (F := Ideal) x Wk bk (ix4 n h k d)

/-- The value column of head `h`, batch `n`, depth `d`. -/
abbrev vcol (n : Fin 4) (h : Fin 12) (d : Fin 64) : Fin 2048 → EReal :=
  fun k => val_main_v65 (F := Ideal) x Wv bv (ix4 n h k d)

theorem lidx_v66_ix (n : Fin 4) (h : Fin 12) (q k : Fin 2048) (d : Fin 64) : lidx_main_v66 (ix4 n h q k) d = ix4 n h q d :=
  funext fun a => Fin.ext (by match a with | ⟨0, _⟩ => rfl | ⟨1, _⟩ => rfl | ⟨2, _⟩ => rfl | ⟨3, _⟩ => rfl)

theorem ridx_v66_ix (n : Fin 4) (h : Fin 12) (q k : Fin 2048) (d : Fin 64) : ridx_main_v66 (ix4 n h q k) d = ix4 n h k d :=
  funext fun a => Fin.ext (by match a with | ⟨0, _⟩ => rfl | ⟨1, _⟩ => rfl | ⟨2, _⟩ => rfl | ⟨3, _⟩ => rfl)

/-- The scaled score read at an index. -/
theorem score_read (n : Fin 4) (h : Fin 12) (q k : Fin 2048) :
    val_main_v68 (F := Ideal) x Wq bq Wk bk (ix4 n h q k)
      = Cert.Attn.scoreRow (qrow x Wq bq n h q) (krows x Wk bk n h) k := by
  rw [val_main_v68_apply, val_main_v67_apply, val_main_cst_11_apply, val_main_v66_apply, Ideal.hostDivf_def, Ideal.ofBits_def,
    div_eight]
  simp only [lidx_v66_ix, ridx_v66_ix]
  rfl

theorem idx72_73_ix (n : Fin 4) (h : Fin 12) (q k : Fin 2048) : idx_main_v72 (idx_main_v73 (ix4 n h q k)) = ix3 n h q :=
  funext fun a => Fin.ext (by match a with | ⟨0, _⟩ => rfl | ⟨1, _⟩ => rfl | ⟨2, _⟩ => rfl)

theorem idx77_78_ix (n : Fin 4) (h : Fin 12) (q k : Fin 2048) : idx_main_v77 (idx_main_v78 (ix4 n h q k)) = ix3 n h q :=
  funext fun a => Fin.ext (by match a with | ⟨0, _⟩ => rfl | ⟨1, _⟩ => rfl | ⟨2, _⟩ => rfl)

theorem idx76_ix (n : Fin 4) (h : Fin 12) (q k : Fin 2048) : idx_main_v76 (ix3 n h q) k = ix4 n h q k :=
  funext fun a => Fin.ext (by match a with | ⟨0, _⟩ => rfl | ⟨1, _⟩ => rfl | ⟨2, _⟩ => rfl | ⟨3, _⟩ => rfl)

theorem lidx_v80_ix (n : Fin 4) (h : Fin 12) (q k : Fin 2048) (d : Fin 64) : lidx_main_v80 (ix4 n h q d) k = ix4 n h q k :=
  funext fun a => Fin.ext (by match a with | ⟨0, _⟩ => rfl | ⟨1, _⟩ => rfl | ⟨2, _⟩ => rfl | ⟨3, _⟩ => rfl)

theorem ridx_v80_ix (n : Fin 4) (h : Fin 12) (q k : Fin 2048) (d : Fin 64) : ridx_main_v80 (ix4 n h q d) k = ix4 n h k d :=
  funext fun a => Fin.ext (by match a with | ⟨0, _⟩ => rfl | ⟨1, _⟩ => rfl | ⟨2, _⟩ => rfl | ⟨3, _⟩ => rfl)

/-- The max-reduce over the keys, read by hand: the fold of max from −∞ over the key coordinate. -/
theorem rowmax_read (n : Fin 4) (h : Fin 12) (q : Fin 2048) :
    val_main_v69 (F := Ideal) x Wq bq Wk bk (ix3 n h q)
      = Cert.Attn.rowMax (qrow x Wq bq n h q) (krows x Wk bk n h) := by
  have hR : S4x12x2048x2048.Reduces [3] S4x12x2048 := by decide
  have e : ∀ k, hR.lift (ix3 n h q) k = ix4 n h q k := fun k =>
    funext fun a => Fin.ext (by match a with | ⟨0, _⟩ => rfl | ⟨1, _⟩ => rfl | ⟨2, _⟩ => rfl | ⟨3, _⟩ => rfl)
  have hinit : val_main_cst_12 (F := Ideal) (Shape.Idx.first h_S_) = ⊥ := ofBits_neg_inf
  unfold val_main_v69 Cert.Attn.rowMax
  refine (Host.reduce_eq_fold_single _ _ _ reducesTo_S4x12x2048x2048_S4x12x2048_d3 hR h_S_ _).trans ?_
  refine (Finset.fold_congr (g := Cert.Attn.scoreRow (qrow x Wq bq n h q) (krows x Wk bk n h)) fun k _ => ?_).trans ?_
  · show val_main_v68 (F := Ideal) x Wq bq Wk bk (hR.lift (ix3 n h q) k) = _
    rw [e k]
    exact score_read x Wq bq Wk bk n h q k
  · exact congrArg (fun c => Finset.fold max c (Cert.Attn.scoreRow (qrow x Wq bq n h q) (krows x Wk bk n h)) Finset.univ) hinit

/-- The maximum the reference subtracts: the reduce, once more against −∞. -/
theorem max_read (n : Fin 4) (h : Fin 12) (q : Fin 2048) :
    val_main_v71 (F := Ideal) x Wq bq Wk bk (ix3 n h q)
      = max ⊥ (Cert.Attn.rowMax (qrow x Wq bq n h q) (krows x Wk bk n h)) := by
  rw [val_main_v71_apply, val_main_v70_apply, val_main_cst_13_apply, rowmax_read, Ideal.maximumf_def, Ideal.ofBits_def,
    ofBits_neg_inf]

/-- The unnormalised weight read at an index. -/
theorem weight_read (n : Fin 4) (h : Fin 12) (q k : Fin 2048) :
    val_main_v75 (F := Ideal) x Wq bq Wk bk (ix4 n h q k)
      = Ideal.exp (Cert.Attn.scoreRow (qrow x Wq bq n h q) (krows x Wk bk n h) k
          - max ⊥ (Cert.Attn.rowMax (qrow x Wq bq n h q) (krows x Wk bk n h))) := by
  rw [val_main_v75_apply, val_main_v74_apply, val_main_v73_apply, val_main_v72_apply, idx72_73_ix, max_read, score_read]
  rfl

/-- The sum of the weights read at an index (it starts from the word 0). -/
theorem wsum_read (n : Fin 4) (h : Fin 12) (q : Fin 2048) :
    val_main_v76 (F := Ideal) x Wq bq Wk bk (ix3 n h q)
      = 0 + ∑ k : Fin 2048, Ideal.exp (Cert.Attn.scoreRow (qrow x Wq bq n h q) (krows x Wk bk n h) k
          - max ⊥ (Cert.Attn.rowMax (qrow x Wq bq n h q) (krows x Wk bk n h))) := by
  rw [val_main_v76_apply, val_main_cst_14_apply, Ideal.ofBits_def, Ideal.ofBits_zero_f32]
  simp only [idx76_ix, weight_read]

/-- The normalised weight read at an index. -/
theorem prob_read (n : Fin 4) (h : Fin 12) (q k : Fin 2048) :
    val_main_v79 (F := Ideal) x Wq bq Wk bk (ix4 n h q k)
      = Ideal.div
          (Ideal.exp (Cert.Attn.scoreRow (qrow x Wq bq n h q) (krows x Wk bk n h) k
            - max ⊥ (Cert.Attn.rowMax (qrow x Wq bq n h q) (krows x Wk bk n h))))
          (0 + ∑ k' : Fin 2048, Ideal.exp (Cert.Attn.scoreRow (qrow x Wq bq n h q) (krows x Wk bk n h) k'
            - max ⊥ (Cert.Attn.rowMax (qrow x Wq bq n h q) (krows x Wk bk n h)))) := by
  rw [val_main_v79_apply, val_main_v78_apply, val_main_v77_apply, idx77_78_ix, wsum_read, weight_read]
  rfl

/-- The attention output, per head, read at an index. -/
theorem out_read (n : Fin 4) (h : Fin 12) (q : Fin 2048) (d : Fin 64) :
    val_main_v80 (F := Ideal) x Wq bq Wk bk Wv bv (ix4 n h q d)
      = ∑ k : Fin 2048,
          Ideal.div
            (Ideal.exp (Cert.Attn.scoreRow (qrow x Wq bq n h q) (krows x Wk bk n h) k
              - max ⊥ (Cert.Attn.rowMax (qrow x Wq bq n h q) (krows x Wk bk n h))))
            (0 + ∑ k' : Fin 2048, Ideal.exp (Cert.Attn.scoreRow (qrow x Wq bq n h q) (krows x Wk bk n h) k'
              - max ⊥ (Cert.Attn.rowMax (qrow x Wq bq n h q) (krows x Wk bk n h))))
            * vcol x Wv bv n h d k := by
  rw [val_main_v80_apply]
  simp only [lidx_v80_ix, ridx_v80_ix, prob_read]

/-- The head merge read at an index: entry (n, q, c) of the result is head c / 64, depth c % 64 of the output. -/
theorem merge_read (n : Fin 4) (q : Fin 2048) (c : Fin 768) :
    val_main_v82 (F := Ideal) x Wq bq Wk bk Wv bv (ix3 n q c)
      = val_main_v80 (F := Ideal) x Wq bq Wk bk Wv bv
          (ix4 n (⟨c.val / 64, Nat.div_lt_of_lt_mul c.isLt⟩ : Fin 12) q (⟨c.val % 64, Nat.mod_lt _ (by decide)⟩ : Fin 64)) := by
  rw [val_main_v82_apply, val_main_v81_apply]
  refine congrArg _ (funext fun a => Fin.ext ?_)
  have hn := n.isLt; have hq := q.isLt; have hc := c.isLt
  match a with
  | ⟨0, _⟩ => show ((n.val * 2048 + q.val) * 768 + c.val) / 1572864 = n.val; omega
  | ⟨1, _⟩ => show ((n.val * 2048 + q.val) * 768 + c.val) / 64 % 12 = c.val / 64; omega
  | ⟨2, _⟩ => show ((n.val * 2048 + q.val) * 768 + c.val) / 768 % 2048 = q.val; omega
  | ⟨3, _⟩ => show ((n.val * 2048 + q.val) * 768 + c.val) % 64 = c.val % 64; omega

end Cert.RefSide

end
-- ==== Proof.RefSide.lean ====
/-
  The reference is the specification, under the precondition.

  The precondition makes every argument entry a real and the γ-modified projections nonzero; then each projection
  stage  zg · (z / zg)  is the plain projection, the head-split rows are projections' rows, the rows are real, and the
  row law of softmax turns the reference's normalise-then-average into the specification's average-then-divide.
-/
import proofs.«118081_j7292854469092_2_alg».proof.Proof.RefRead
import proofs.«118081_j7292854469092_2_alg».proof.Proof.Spec
import proofs.«118081_j7292854469092_2_alg».proof.Proof.RefSide.Proj
import proofs.«118081_j7292854469092_2_alg».proof.Proof.RefSide.Attn

noncomputable section

namespace Cert.RefSide

open Idealize.ShloMosaic Idealize.ShloMosaic.ValueIdx Idealize.ShloMosaic.TcCoe Idealize.SL.Sem
open Cert.ReferenceIdeal Cert.ReferenceIdeal.Read

/-- The reference's result array is the specification's, index by index. -/
theorem ref_result
    (x : FVec Ideal S4x2048x768 .f32) (Wq : FVec Ideal S768x768 .f32) (bq : FVec Ideal S768 .f32)
    (Wk : FVec Ideal S768x768 .f32) (bk : FVec Ideal S768 .f32) (Wv : FVec Ideal S768x768 .f32) (bv : FVec Ideal S768 .f32)
    (hpre : Cert.Pre_finite_inputs.fn (F := Ideal) x Wq bq Wk bk Wv bv = fun _ => 1#1) :
    Cert.ReferenceIdeal.Read.val_main_v82 (F := Ideal) x Wq bq Wk bk Wv bv = Cert.Attn.result x Wq bq Wk bk Wv bv := by
  have P := preFacts x Wq bq Wk bk Wv bv hpre
  funext i
  obtain ⟨n, q, c, rfl⟩ : ∃ (n : Fin 4) (q : Fin 2048) (c : Fin 768), i = ix3 n q c := ⟨i 0, i 1, i 2, eq_ix3 i⟩
  rw [merge_read, out_read]
  have hQ : qrow x Wq bq n ⟨c.val / 64, Nat.div_lt_of_lt_mul c.isLt⟩ q
      = fun d' => Cert.Attn.proj x Wq bq n q (Cert.Attn.col ⟨c.val / 64, Nat.div_lt_of_lt_mul c.isLt⟩ d') :=
    funext fun d' => head_read x Wq bq P.x_real P.Wq_real P.bq_real P.zq_ne n _ q d'
  have hK : krows x Wk bk n ⟨c.val / 64, Nat.div_lt_of_lt_mul c.isLt⟩
      = fun k d' => Cert.Attn.proj x Wk bk n k (Cert.Attn.col ⟨c.val / 64, Nat.div_lt_of_lt_mul c.isLt⟩ d') :=
    funext fun k => funext fun d' =>
      (congrFun (stageK_eq x Wk bk) _).trans (head_read x Wk bk P.x_real P.Wk_real P.bk_real P.zk_ne n _ k d')
  have hV : vcol x Wv bv n ⟨c.val / 64, Nat.div_lt_of_lt_mul c.isLt⟩ ⟨c.val % 64, Nat.mod_lt _ (by decide)⟩
      = fun k => Cert.Attn.proj x Wv bv n k
          (Cert.Attn.col ⟨c.val / 64, Nat.div_lt_of_lt_mul c.isLt⟩ ⟨c.val % 64, Nat.mod_lt _ (by decide)⟩) :=
    funext fun k =>
      (congrFun (stageV_eq x Wv bv) _).trans (head_read x Wv bv P.x_real P.Wv_real P.bv_real P.zv_ne n _ k _)
  rw [hQ, hK, hV]
  rw [softmax_attnRow _ _ _ (fun d' => isReal_proj x Wq bq P.x_real P.Wq_real P.bq_real n q _)
    (fun k d' => isReal_proj x Wk bk P.x_real P.Wk_real P.bk_real n k _)
    (fun k => isReal_proj x Wv bv P.x_real P.Wv_real P.bv_real n k _)]
  rfl

/-- The same for the run's result term, at the argument buffers of a memory. -/
theorem ref_result_run (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Cert.ReferenceIdeal.Value.res_main_v82 (F := Ideal) m c
      = Cert.Attn.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) :=
  (val_main_v82_eq m c).trans (ref_result _ _ _ _ _ _ _ hpre)

end Cert.RefSide

end
-- ==== Proof.KVal.HostGlue.lean ====
import proofs.«118081_j7292854469092_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen

variable {α : Type}

/-! ## The activations flattened: [4, 2048, 768] → [8192, 768] -/

/-- Row `n * 2048 + s` of the flattened activations is row `s` of batch `n`. -/
theorem reshape_x_apply (x : S4x2048x768.Idx → α) (h : S4x2048x768.ShapeCasts S8192x768)
    (n : Fin 4) (s : Fin 2048) (d : Fin 768) :
    shapeCast S8192x768 x h (ix2 (⟨n.val * 2048 + s.val, by omega⟩ : Fin 8192) d) = x (ix3 n s d) :=
  shapeCast_apply x h _ _ (by
    rw [Shape.rowMajor_val_three, Shape.rowMajor_val_two]
    show (n.val * 2048 + s.val) * 768 + d.val = (n.val * 2048 + s.val) * 768 + d.val
    rfl)

/-- The same read at any row `R` of the flattened array: batch `R / 2048`, row `R % 2048`. -/
theorem reshape_x_apply_row (x : S4x2048x768.Idx → α) (h : S4x2048x768.ShapeCasts S8192x768)
    (R : Fin 8192) (d : Fin 768) :
    shapeCast S8192x768 x h (ix2 R d)
      = x (ix3 (⟨R.val / 2048, by omega⟩ : Fin 4) (⟨R.val % 2048, by omega⟩ : Fin 2048) d) :=
  shapeCast_apply x h _ _ (by
    rw [Shape.rowMajor_val_three, Shape.rowMajor_val_two]
    show (R.val / 2048 * 2048 + R.val % 2048) * 768 + d.val = R.val * 768 + d.val
    have := Nat.div_add_mod R.val 2048
    omega)

/-! ## A weight transposed: [768, 768] with the axes swapped -/

/-- The transposed weight at (d, o) is the weight at (o, d). -/
theorem transpose_w_apply (W : S768x768.Idx → α) (h : S768x768.Transposes [1, 0] S768x768) (d o : Fin 768) :
    transpose S768x768 [1, 0] W h (ix2 d o) = W (ix2 o d) :=
  transpose_ix2_apply W h d o

/-! ## Three [768, 768] arrays joined along the columns into [768, 2304] -/

/-- Columns 0 … 767 of the join are the first array. -/
theorem concat_w_apply0 (A B C : S768x768.Idx → α)
    (h : Shape.Concatenates [S768x768, S768x768, S768x768] S768x2304 1) (d o : Fin 768) :
    concatenate S768x2304 1 [⟨S768x768, A⟩, ⟨S768x768, B⟩, ⟨S768x768, C⟩] h (ix2 d (⟨o.val, by omega⟩ : Fin 2304))
      = A (ix2 d o) := by
  refine concatenate_apply_piece (t := S768x2304) (1 : Fin 2) [⟨S768x768, A⟩, ⟨S768x768, B⟩, ⟨S768x768, C⟩] h
    (ix2 d (⟨o.val, by omega⟩ : Fin 2304)) 0 (by simp) S768x768 A rfl rfl 0 rfl (ix2 d o) (fun b hb => ?_) ?_
  · match b with
    | ⟨0, _⟩ => rfl
    | ⟨1, _⟩ => exact absurd rfl hb
  · exact Nat.zero_add _

/-- Columns 768 … 1535 of the join are the second array. -/
theorem concat_w_apply1 (A B C : S768x768.Idx → α)
    (h : Shape.Concatenates [S768x768, S768x768, S768x768] S768x2304 1) (d o : Fin 768) :
    concatenate S768x2304 1 [⟨S768x768, A⟩, ⟨S768x768, B⟩, ⟨S768x768, C⟩] h (ix2 d (⟨768 + o.val, by omega⟩ : Fin 2304))
      = B (ix2 d o) := by
  refine concatenate_apply_piece (t := S768x2304) (1 : Fin 2) [⟨S768x768, A⟩, ⟨S768x768, B⟩, ⟨S768x768, C⟩] h
    (ix2 d (⟨768 + o.val, by omega⟩ : Fin 2304)) 1 (by simp) S768x768 B rfl rfl 768 rfl (ix2 d o) (fun b hb => ?_) ?_
  · match b with
    | ⟨0, _⟩ => rfl
    | ⟨1, _⟩ => exact absurd rfl hb
  · rfl

/-- Columns 1536 … 2303 of the join are the third array. -/
theorem concat_w_apply2 (A B C : S768x768.Idx → α)
    (h : Shape.Concatenates [S768x768, S768x768, S768x768] S768x2304 1) (d o : Fin 768) :
    concatenate S768x2304 1 [⟨S768x768, A⟩, ⟨S768x768, B⟩, ⟨S768x768, C⟩] h (ix2 d (⟨1536 + o.val, by omega⟩ : Fin 2304))
      = C (ix2 d o) := by
  refine concatenate_apply_piece (t := S768x2304) (1 : Fin 2) [⟨S768x768, A⟩, ⟨S768x768, B⟩, ⟨S768x768, C⟩] h
    (ix2 d (⟨1536 + o.val, by omega⟩ : Fin 2304)) 2 (by simp) S768x768 C rfl rfl 1536 rfl (ix2 d o) (fun b hb => ?_) ?_
  · match b with
    | ⟨0, _⟩ => rfl
    | ⟨1, _⟩ => exact absurd rfl hb
  · rfl

/-! ## Three [768] arrays joined into [2304] -/

theorem concat_b_apply0 (a b c : S768.Idx → α) (h : Shape.Concatenates [S768, S768, S768] S2304 0) (o : Fin 768) :
    concatenate S2304 0 [⟨S768, a⟩, ⟨S768, b⟩, ⟨S768, c⟩] h (ix1 (⟨o.val, by omega⟩ : Fin 2304)) = a (ix1 o) := by
  refine concatenate_apply_piece (t := S2304) (0 : Fin 1) [⟨S768, a⟩, ⟨S768, b⟩, ⟨S768, c⟩] h
    (ix1 (⟨o.val, by omega⟩ : Fin 2304)) 0 (by simp) S768 a rfl rfl 0 rfl (ix1 o) (fun e he => ?_) ?_
  · match e with
    | ⟨0, _⟩ => exact absurd rfl he
  · exact Nat.zero_add _

theorem concat_b_apply1 (a b c : S768.Idx → α) (h : Shape.Concatenates [S768, S768, S768] S2304 0) (o : Fin 768) :
    concatenate S2304 0 [⟨S768, a⟩, ⟨S768, b⟩, ⟨S768, c⟩] h (ix1 (⟨768 + o.val, by omega⟩ : Fin 2304)) = b (ix1 o) := by
  refine concatenate_apply_piece (t := S2304) (0 : Fin 1) [⟨S768, a⟩, ⟨S768, b⟩, ⟨S768, c⟩] h
    (ix1 (⟨768 + o.val, by omega⟩ : Fin 2304)) 1 (by simp) S768 b rfl rfl 768 rfl (ix1 o) (fun e he => ?_) ?_
  · match e with
    | ⟨0, _⟩ => exact absurd rfl he
  · rfl

theorem concat_b_apply2 (a b c : S768.Idx → α) (h : Shape.Concatenates [S768, S768, S768] S2304 0) (o : Fin 768) :
    concatenate S2304 0 [⟨S768, a⟩, ⟨S768, b⟩, ⟨S768, c⟩] h (ix1 (⟨1536 + o.val, by omega⟩ : Fin 2304)) = c (ix1 o) := by
  refine concatenate_apply_piece (t := S2304) (0 : Fin 1) [⟨S768, a⟩, ⟨S768, b⟩, ⟨S768, c⟩] h
    (ix1 (⟨1536 + o.val, by omega⟩ : Fin 2304)) 2 (by simp) S768 c rfl rfl 1536 rfl (ix1 o) (fun e he => ?_) ?_
  · match e with
    | ⟨0, _⟩ => exact absurd rfl he
  · rfl

/-! ## The projection result unflattened: [8192, 2304] → [4, 2048, 2304] -/

/-- Entry (n, s, c) of the unflattened result is row `n * 2048 + s` of the flat one. -/
theorem reshape_out_apply (y : S8192x2304.Idx → α) (h : S8192x2304.ShapeCasts S4x2048x2304)
    (n : Fin 4) (s : Fin 2048) (c : Fin 2304) :
    shapeCast S4x2048x2304 y h (ix3 n s c) = y (ix2 (⟨n.val * 2048 + s.val, by omega⟩ : Fin 8192) c) :=
  shapeCast_apply y h _ _ (by
    rw [Shape.rowMajor_val_three, Shape.rowMajor_val_two]
    show (n.val * 2048 + s.val) * 2304 + c.val = (n.val * 2048 + s.val) * 2304 + c.val
    rfl)

/-! ## The joined, narrowed weights and the joined bias, in one step each

The host transposes each weight, joins the three along the columns and narrows the join to bf16 (the identity on the
extended reals); column `t * 768 + o` of the result, row `d`, is weight `t` at (o, d). -/

theorem wcat_apply0 (Wq Wk Wv : FVec Ideal S768x768 .f32) (ht : S768x768.Transposes [1, 0] S768x768)
    (hc : Shape.Concatenates [S768x768, S768x768, S768x768] S768x2304 1) (hb : FTy.bits .bf16 < FTy.bits .f32)
    (d o : Fin 768) :
    (truncf .bf16 (concatenate S768x2304 1 [⟨S768x768, transpose S768x768 [1, 0] Wq ht⟩,
      ⟨S768x768, transpose S768x768 [1, 0] Wk ht⟩, ⟨S768x768, transpose S768x768 [1, 0] Wv ht⟩] hc : FVec Ideal S768x2304 .f32) hb
        : FVec Ideal S768x2304 .bf16) (ix2 d (⟨o.val, by omega⟩ : Fin 2304)) = Wq (ix2 o d) := by
  rw [truncf_apply, concat_w_apply0, transpose_w_apply]

theorem wcat_apply1 (Wq Wk Wv : FVec Ideal S768x768 .f32) (ht : S768x768.Transposes [1, 0] S768x768)
    (hc : Shape.Concatenates [S768x768, S768x768, S768x768] S768x2304 1) (hb : FTy.bits .bf16 < FTy.bits .f32)
    (d o : Fin 768) :
    (truncf .bf16 (concatenate S768x2304 1 [⟨S768x768, transpose S768x768 [1, 0] Wq ht⟩,
      ⟨S768x768, transpose S768x768 [1, 0] Wk ht⟩, ⟨S768x768, transpose S768x768 [1, 0] Wv ht⟩] hc : FVec Ideal S768x2304 .f32) hb
        : FVec Ideal S768x2304 .bf16) (ix2 d (⟨768 + o.val, by omega⟩ : Fin 2304)) = Wk (ix2 o d) := by
  rw [truncf_apply, concat_w_apply1, transpose_w_apply]

theorem wcat_apply2 (Wq Wk Wv : FVec Ideal S768x768 .f32) (ht : S768x768.Transposes [1, 0] S768x768)
    (hc : Shape.Concatenates [S768x768, S768x768, S768x768] S768x2304 1) (hb : FTy.bits .bf16 < FTy.bits .f32)
    (d o : Fin 768) :
    (truncf .bf16 (concatenate S768x2304 1 [⟨S768x768, transpose S768x768 [1, 0] Wq ht⟩,
      ⟨S768x768, transpose S768x768 [1, 0] Wk ht⟩, ⟨S768x768, transpose S768x768 [1, 0] Wv ht⟩] hc : FVec Ideal S768x2304 .f32) hb
        : FVec Ideal S768x2304 .bf16) (ix2 d (⟨1536 + o.val, by omega⟩ : Fin 2304)) = Wv (ix2 o d) := by
  rw [truncf_apply, concat_w_apply2, transpose_w_apply]

end Cert.KVal
end
-- ==== Proof.KVal.ProjPayload.lean ====
import proofs.«118081_j7292854469092_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen

/-- The projection's left operand index: row of the output, contraction coordinate on axis 1. -/
theorem proj_lhs0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide),
    dif_pos (show (0 : Fin S512x768.rank) ∈ dot_S512x768_S768x2304_S512x2304_1_0_0_1_n_n.lhsNonContracting by decide)]
  rfl

theorem proj_lhs1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q

theorem proj_rhs0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q

theorem proj_rhs1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide),
    dif_pos (show (1 : Fin S768x2304.rank) ∈ dot_S512x768_S768x2304_S512x2304_1_0_0_1_n_n.rhsNonContracting by decide)]
  rfl

/-- The [512,768] × [768,2304] product into the zero splat, at (r, j): the sum over the 768 contraction coordinates. -/
theorem proj_matmul_apply (a : FVec Ideal S512x768 .bf16) (b : FVec Ideal S768x2304 .bf16) (r : Fin 512) (j : Fin 2304) :
    matmul dot_S512x768_S768x2304_S512x2304_1_0_0_1_n_n none a b (constant (F := Ideal) S512x2304 .f32 0x00000000#32) (ix2 r j)
      = ∑ d : Fin 768, a (ix2 r d) * b (ix2 d j) := by
  simp only [matmul]
  rw [Ideal.matmul_constant_zero_apply,
    ← Equiv.sum_comp (contrEquiv1 dot_S512x768_S768x2304_S512x2304_1_0_0_1_n_n 768 rfl rfl).symm]
  refine Finset.sum_congr rfl fun k _ => ?_
  have hk := contrEquiv1_symm_val dot_S512x768_S768x2304_S512x2304_1_0_0_1_n_n 768 rfl rfl k
  have el : dot_S512x768_S768x2304_S512x2304_1_0_0_1_n_n.lhsIdx (ix2 r j)
      ((contrEquiv1 dot_S512x768_S768x2304_S512x2304_1_0_0_1_n_n 768 rfl rfl).symm k) = ix2 r k :=
    funext fun c => Fin.ext (by
      match c with
      | ⟨0, _⟩ => exact proj_lhs0 _ _
      | ⟨1, _⟩ => exact (proj_lhs1 _ _).trans hk)
  have er : dot_S512x768_S768x2304_S512x2304_1_0_0_1_n_n.rhsIdx (ix2 r j)
      ((contrEquiv1 dot_S512x768_S768x2304_S512x2304_1_0_0_1_n_n 768 rfl rfl).symm k) = ix2 k j :=
    funext fun c => Fin.ext (by
      match c with
      | ⟨0, _⟩ => exact (proj_rhs0 _ _).trans hk
      | ⟨1, _⟩ => exact proj_rhs1 _ _)
  rw [el, er]

/-- The projection body's one store, read at (r, j): row r of the activations against column j of the joined weights,
    plus the joined bias at j. Format changes are the identity on the extended reals. -/
theorem proj_payload (v0 : Vec Ideal S512x768 .f32) (v3 : Vec Ideal S768x2304 .bf16) (v6 : Vec Ideal S2304 .f32) (r : Fin 512) (j : Fin 2304) :
    k0_pay1 (F := Ideal) v0 v3 v6 (ix2 r j) = (∑ d : Fin 768, v0 (ix2 r d) * v3 (ix2 d j)) + v6 (ix1 j) := by
  unfold k0_pay1
  rw [truncf_apply, addf_apply, shapeCast_self, shapeCast_self, shapeCast_self, proj_matmul_apply,
    broadcastTo_1b_ab_apply, shapeCast_a_1a_apply]
  rfl

end Cert.KVal
end
-- ==== Proof.KVal.Final0.lean ====
import proofs.«118081_j7292854469092_2_alg».proof.Proof.KI.R0
import proofs.«118081_j7292854469092_2_alg».proof.Proof.KVal.ProjPayload
import Idealize.ShloMosaic.Lib.ValueIdx
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen

open Cert.KernelIdeal.Fr Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The fused projection as one function of its three operand arrays: at (R, j), row R of the flattened activations
    against column j of the joined weights, plus the joined bias at j. -/
def projAt (x : S8192x768.Idx → EReal) (w : S768x2304.Idx → EReal) (b : S2304.Idx → EReal) : S8192x2304.Idx → EReal := fun i =>
  (∑ d : Fin 768, x (ix2 ⟨(i 0).val, (i 0).isLt⟩ d) * w (ix2 d ⟨(i 1).val, (i 1).isLt⟩)) + b (ix1 ⟨(i 1).val, (i 1).isLt⟩)

/-- What the projection's result array ends holding: `projAt` of the arrays the call found. -/
def G0 (c : Dev nD) : S8192x2304.Idx → EReal := projAt (V c main_v0) (V c main_v5) (V c main_v6)

/-- The printed index maps over the sixteen points: the activations' and the result's row tile is the point's number,
    the weights and the bias are one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The activations' block at point `t`: rows 512 t … 512 t + 511 of the flattened array. -/
theorem iblk0_0_apply (c : Dev nD) (t : Fin cfg0.N) (x : S512x768.Idx) (k : S8192x768.Idx)
    (hk0 : (k 0).val = 512 * t.val + (x 0).val) (hk1 : (k 1).val = (x 1).val) :
    (iblk0 V c 0 t : Vec Ideal S512x768 .f32) x = (V c main_v0 : S8192x768.Idx → EReal) k := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 768 + 1 * (x 1).val = (k 1).val; rw [e1, hk1]; omega

/-- The weights' block at every point is the whole joined array. -/
theorem iblk0_1_apply (c : Dev nD) (t : Fin cfg0.N) (x : S768x2304.Idx) :
    (iblk0 V c 1 t : Vec Ideal S768x2304 .bf16) x = (V c main_v5 : S768x2304.Idx → EReal) x := by
  obtain ⟨-, -, e0, e1, -⟩ := idx_facts0 t
  unfold iblk0
  rw [View.read_apply]
  show V c main_v5 _ = V c main_v5 _
  congr 1
  funext a
  apply Fin.ext
  match a with
  | ⟨0, _⟩ => show win0_1.index t (0 : Fin 2) * 768 + 1 * (x 0).val = (x 0).val; rw [e0]; omega
  | ⟨1, _⟩ => show win0_1.index t (1 : Fin 2) * 2304 + 1 * (x 1).val = (x 1).val; rw [e1]; omega

/-- The bias' block at every point is the whole joined bias. -/
theorem iblk0_2_apply (c : Dev nD) (t : Fin cfg0.N) (x : S2304.Idx) :
    (iblk0 V c 2 t : Vec Ideal S2304 .f32) x = (V c main_v6 : S2304.Idx → EReal) x := by
  obtain ⟨-, -, -, -, e0, -⟩ := idx_facts0 t
  unfold iblk0
  rw [View.read_apply]
  show V c main_v6 _ = V c main_v6 _
  congr 1
  funext a
  apply Fin.ext
  match a with
  | ⟨0, _⟩ => show win0_2.index t (0 : Fin 1) * 2304 + 1 * (x 0).val = (x 0).val; rw [e0]; omega

/-- What point `t` writes back is block `t` of `G0`. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S512x768) hz2, View.ld_unit_zero (S := S768x2304) hz2, View.ld_unit_zero (S := S2304) hz1]
  obtain ⟨-, -, -, -, -, e0, e1⟩ := idx_facts0 t
  funext j
  obtain ⟨p, q, rfl⟩ : ∃ (p : Fin 512) (q : Fin 2304), j = ix2 p q := ⟨j 0, j 1, eq_ix2 j⟩
  refine (proj_payload (iblk0 V c 0 t) (iblk0 V c 1 t) (iblk0 V c 2 t) p q).trans ?_
  rw [View.read_apply]
  have h0 : ((((cfg0.win 3).blk t).view.emb (ix2 p q)) 0).val = 512 * t.val + p.val := by
    show win0_3.index t (0 : Fin 2) * 512 + 1 * p.val = _; rw [e0]; omega
  have h1 : ((((cfg0.win 3).blk t).view.emb (ix2 p q)) 1).val = q.val := by
    show win0_3.index t (1 : Fin 2) * 2304 + 1 * q.val = _; rw [e1]; omega
  unfold G0 projAt
  congr 1
  · refine Finset.sum_congr rfl fun d _ => ?_
    congr 1
    · refine iblk0_0_apply V c t (ix2 p d) _ ?_ ?_
      · exact h0
      · rfl
    · rw [iblk0_1_apply]
      exact congrArg _ (funext fun a => Fin.ext (by
        match a with
        | ⟨0, _⟩ => rfl
        | ⟨1, _⟩ => exact h1.symm))
  · rw [iblk0_2_apply]
    exact congrArg _ (funext fun a => Fin.ext (by
      match a with
      | ⟨0, _⟩ => exact h1.symm))

/-- An index of the result array is in point `t`'s block iff each coordinate is in the block's range on its axis. -/
theorem mem_blk0 (t : Fin cfg0.N) (i : S8192x2304.Idx) :
    i ∈ ((cfg0.win 3).blk t).view.set ↔ ∀ a : Fin 2, win0_3.index t a * S512x2304.size a ≤ (i a).val
      ∧ (i a).val < win0_3.index t a * S512x2304.size a + S512x2304.size a := by
  show i ∈ ((View.whole main_v7).slice (win0_3.rect t)).set ↔ _
  rw [View.set_slice_whole, Rect.mem_set_unit]
  exact Iff.rfl

/-- The sixteen row tiles cover the result array: row R is in tile R / 512. -/
theorem cover0 (i : S8192x2304.Idx) :
    ∃ t : Fin cfg0.N, (cfg0.win 3).flush t = true ∧ i ∈ ((cfg0.win 3).blk t).view.set := by
  have hN : cfg0.N = 16 := N_0
  have hi0 : (i 0).val < 8192 := (i 0).isLt
  have hi1 : (i 1).val < 2304 := (i 1).isLt
  refine ⟨⟨(i 0).val / 512, by rw [hN]; omega⟩, flush0_3 _, ?_⟩
  rw [mem_blk0]
  obtain ⟨-, -, -, -, -, e0, e1⟩ := idx_facts0 ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]
    show (i 0).val / 512 * 512 ≤ (i 0).val ∧ (i 0).val < (i 0).val / 512 * 512 + 512
    omega
  | ⟨1, _⟩ =>
    show win0_3.index _ (1 : Fin 2) * 2304 ≤ (i 1).val ∧ (i 1).val < win0_3.index _ (1 : Fin 2) * 2304 + 2304
    rw [e1]
    omega

/-- The projection's result array after the first call: `G0` of the arrays the call found. -/
theorem final0 (c : Dev nD) :
    (dat0 (F := Ideal) V c).arrAt 3 cfg0.N = projAt (V c main_v0) (V c main_v5) (V c main_v6) :=
  (dat0 V c).arrAt_eq_of_cover 3 (G0 V c) (fun t _ => flushed0_eq V c t) (cover0)

end Cert.KVal
end
-- ==== Proof.KVal.AttnOps.lean ====
import proofs.«118081_j7292854469092_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen

variable {α : Type}

/-! ## The keepdims column forms -/

/-- A `[512]` array cast to `[512, 1]` reads, at `(r, u)`, the operand at `r`. -/
theorem col_cast_apply (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    omega)

/-- A `[512, 1]` column broadcast to `[512, 2048]` reads, at `(r, k)`, the column at `r`. -/
theorem col_bcast2048_apply (x : S512x1.Idx → α) (h : S512x1.Broadcasts S512x2048) (r : Fin 512) (k : Fin 2048) :
    broadcastTo S512x2048 x h (ix2 r k) = x (ix2 r (0 : Fin 1)) := by
  refine broadcastTo_apply x h (ix2 r k) (ix2 r (0 : Fin 1)) fun ax => ?_
  match ax with
  | ⟨0, _⟩ =>
    show r.val = if (512 : Nat) = 1 then 0 else r.val
    rw [if_neg (by decide)]
  | ⟨1, _⟩ => rfl

/-- A `[512, 1]` column broadcast to `[512, 64]` reads, at `(r, d)`, the column at `r`. -/
theorem col_bcast64_apply (x : S512x1.Idx → α) (h : S512x1.Broadcasts S512x64) (r : Fin 512) (d : Fin 64) :
    broadcastTo S512x64 x h (ix2 r d) = x (ix2 r (0 : Fin 1)) := by
  refine broadcastTo_apply x h (ix2 r d) (ix2 r (0 : Fin 1)) fun ax => ?_
  match ax with
  | ⟨0, _⟩ =>
    show r.val = if (512 : Nat) = 1 then 0 else r.val
    rw [if_neg (by decide)]
  | ⟨1, _⟩ => rfl

/-! ## The two products -/

theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys, both contracted along their depth axis: entry (r, k) is the depth-sum of row r of the
    queries times row k of the keys. -/
theorem qk_matmul_apply (a : FVec Ideal S512x64 .bf16) (b : FVec Ideal S2048x64 .bf16) (r : Fin 512) (k : Fin 2048) :
    matmul dot_S512x64_S2048x64_S512x2048_1_1_0_0_n_n none a b (constant (F := Ideal) S512x2048 .f32 0x00000000#32) (ix2 r k)
      = ∑ d : Fin 64, a (ix2 r d) * b (ix2 k d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r k) ((contrEquiv1 dot_S512x64_S2048x64_S512x2048_1_1_0_0_n_n 64 rfl rfl).symm d) = ix2 r d :=
    funext fun c => Fin.ext (by
      match c with
      | ⟨0, _⟩ => exact qk_lhs0 _ _
      | ⟨1, _⟩ => exact (qk_lhs1 _ _).trans hd)
  have er : dot_S512x64_S2048x64_S512x2048_1_1_0_0_n_n.rhsIdx (ix2 r k) ((contrEquiv1 dot_S512x64_S2048x64_S512x2048_1_1_0_0_n_n 64 rfl rfl).symm d) = ix2 k d :=
    funext fun c => Fin.ext (by
      match c with
      | ⟨0, _⟩ => exact qk_rhs0 _ _
      | ⟨1, _⟩ => exact (qk_rhs1 _ _).trans hd)
  rw [el, er]

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Weights against values: entry (r, d) is the sum over the keys of weight (r, k) times value (k, d). -/
theorem pv_matmul_apply (p : FVec Ideal S512x2048 .bf16) (v : FVec Ideal S2048x64 .bf16) (r : Fin 512) (d : Fin 64) :
    matmul dot_S512x2048_S2048x64_S512x64_1_0_0_1_n_n none p v (constant (F := Ideal) S512x64 .f32 0x00000000#32) (ix2 r d)
      = ∑ k : Fin 2048, p (ix2 r k) * v (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun c => Fin.ext (by
      match c with
      | ⟨0, _⟩ => exact pv_lhs0 _ _
      | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun c => Fin.ext (by
      match c with
      | ⟨0, _⟩ => exact (pv_rhs0 _ _).trans hk
      | ⟨1, _⟩ => exact pv_rhs1 _ _)
  rw [el, er]

/-! ## The two row reductions -/

/-- The accumulator word of the row maximum is −∞. -/
theorem ofBits_neg_inf_f32 : Ideal.ofBits .f32 0xFF800000#32 = ⊥ := by
  simp [Ideal.ofBits, Ideal.ieee]

/-- The row maximum over the 2048 keys, from −∞. -/
theorem rowmax_apply (S : FVec Ideal S512x2048 .f32) (r : Fin 512) :
    multiReduction .maximumf [1] S512 S 0xFF800000#32 reduces_S512x2048_S512 (.inl rfl) rfl (ix1 r)
      = (Finset.univ : Finset (Fin 2048)).fold max ⊥ (fun k => S (ix2 r k)) := by
  refine (Ideal.multiReduction_maximumf_single S _ reduces_S512x2048_S512 (.inl rfl) rfl (ix1 r)).trans ?_
  have hl : (S ∘ reduces_S512x2048_S512.lift (ix1 r)) = fun k : Fin 2048 => S (ix2 r k) :=
    funext fun k => congrArg S (funext fun c => Fin.ext (by
      match c with
      | ⟨0, _⟩ => rfl
      | ⟨1, _⟩ => rfl))
  show (Finset.univ : Finset (Fin 2048)).fold max (Ideal.ofBits .f32 0xFF800000#32) (S ∘ reduces_S512x2048_S512.lift (ix1 r)) = _
  rw [ofBits_neg_inf_f32, hl]
  rfl

/-- The row sum over the 2048 keys. -/
theorem rowsum_apply (E : FVec Ideal S512x2048 .f32) (r : Fin 512) :
    multiReduction .add [1] S512 E 0x00000000#32 reduces_S512x2048_S512 (.inl rfl) rfl (ix1 r)
      = ∑ k : Fin 2048, E (ix2 r k) := by
  refine (Ideal.multiReduction_add_single E _ reduces_S512x2048_S512 (.inl rfl) rfl (ix1 r)).trans ?_
  exact Finset.sum_congr rfl fun k _ => congrArg E (funext fun c => Fin.ext (by
    match c with
    | ⟨0, _⟩ => rfl
    | ⟨1, _⟩ => rfl))

end Cert.KVal
end
-- ==== Proof.KVal.AttnHead.lean ====
import proofs.«118081_j7292854469092_2_alg».proof.Proof.Gen.KernelIdeal.Skeleton
import proofs.«118081_j7292854469092_2_alg».proof.Proof.KVal.AttnOps
import proofs.«118081_j7292854469092_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen

open Cert.Attn

/-! ## One head's arithmetic, over its three operands

The attention body computes each of its two heads by the same operations on a query block `a` [512, 64], a key block
`b` [2048, 64] and a value block `V` [2048, 64]; they are named here once. -/

/-- The scaled scores: queries against keys, times 1/8. -/
def scoresOf (a : FVec Ideal S512x64 .bf16) (b : FVec Ideal S2048x64 .bf16) : FVec Ideal S512x2048 .f32 :=
  mulf (matmul dot_S512x64_S2048x64_S512x2048_1_1_0_0_n_n none a b (constant (F := Ideal) S512x2048 .f32 0x00000000#32))
    (broadcast S512x2048 (Scalar.ofBits (F := Ideal) .f32 0x3E000000#32))

/-- The unnormalised weights: the exponential of each score less its row's maximum. -/
def expOf (S : FVec Ideal S512x2048 .f32) : FVec Ideal S512x2048 .f32 :=
  exp (subf S (broadcastTo S512x2048 (shapeCast S512x1
    (multiReduction .maximumf [1] S512 S 0xFF800000#32 reduces_S512x2048_S512 (.inl rfl) rfl)
    shapeCasts_S512_S512x1) broadcasts_S512x1_S512x2048))

/-- The row sums of the weights, as a column. -/
def sumOf (E : FVec Ideal S512x2048 .f32) : FVec Ideal S512x1 .f32 :=
  shapeCast S512x1 (multiReduction .add [1] S512 E 0x00000000#32 reduces_S512x2048_S512 (.inl rfl) rfl)
    shapeCasts_S512_S512x1

/-- The weights against the values. -/
def pvOf (E : FVec Ideal S512x2048 .f32) (V : FVec Ideal S2048x64 .bf16) : FVec Ideal S512x64 .f32 :=
  matmul dot_S512x2048_S2048x64_S512x64_1_0_0_1_n_n none (truncf .bf16 E bitsLt_bf16_f32) V (constant (F := Ideal) S512x64 .f32 0x00000000#32)

/-- One head's output block. -/
def headOf (a : FVec Ideal S512x64 .bf16) (b V : FVec Ideal S2048x64 .bf16) : FVec Ideal S512x64 .f32 :=
  divf (pvOf (expOf (scoresOf a b)) V) (broadcastTo S512x64 (sumOf (expOf (scoresOf a b))) broadcasts_S512x1_S512x64)

theorem scoresOf_apply (a : FVec Ideal S512x64 .bf16) (b : FVec Ideal S2048x64 .bf16) (r : Fin 512) (k : Fin 2048) :
    scoresOf a b (ix2 r k) = (∑ d : Fin 64, a (ix2 r d) * b (ix2 k d)) * eighth := by
  unfold scoresOf
  rw [mulf_apply, qk_matmul_apply, broadcast_apply]
  rfl

theorem expOf_apply (S : FVec Ideal S512x2048 .f32) (r : Fin 512) (k : Fin 2048) :
    expOf S (ix2 r k)
      = Ideal.exp (S (ix2 r k) - (Finset.univ : Finset (Fin 2048)).fold max ⊥ (fun k' => S (ix2 r k'))) := by
  unfold expOf
  show Ideal.exp (S (ix2 r k) - broadcastTo S512x2048 _ broadcasts_S512x1_S512x2048 (ix2 r k)) = _
  rw [col_bcast2048_apply, col_cast_apply, rowmax_apply]

theorem sumOf_apply (E : FVec Ideal S512x2048 .f32) (r : Fin 512) (u : Fin 1) :
    sumOf E (ix2 r u) = ∑ k : Fin 2048, E (ix2 r k) := by
  unfold sumOf
  rw [col_cast_apply, rowsum_apply]

theorem pvOf_apply (E : FVec Ideal S512x2048 .f32) (V : FVec Ideal S2048x64 .bf16) (r : Fin 512) (d : Fin 64) :
    pvOf E V (ix2 r d) = ∑ k : Fin 2048, E (ix2 r k) * V (ix2 k d) := by
  unfold pvOf
  rw [pv_matmul_apply]
  rfl

/-- One head's output at (r, d) is the specification's attention row, of whatever the three operands hold there. -/
theorem headOf_apply (a : FVec Ideal S512x64 .bf16) (b V : FVec Ideal S2048x64 .bf16) (r : Fin 512) (d : Fin 64)
    (qrow : Fin 64 → EReal) (krows : Fin 2048 → Fin 64 → EReal) (vcol : Fin 2048 → EReal)
    (ha : ∀ d', a (ix2 r d') = qrow d') (hb : ∀ k d', b (ix2 k d') = krows k d') (hV : ∀ k, V (ix2 k d) = vcol k) :
    headOf a b V (ix2 r d) = attnRow qrow krows vcol := by
  have hS : ∀ k, scoresOf a b (ix2 r k) = scoreRow qrow krows k := fun k => by
    rw [scoresOf_apply]
    unfold scoreRow
    simp only [ha, hb]
  have hSf : (fun k' => scoresOf a b (ix2 r k')) = scoreRow qrow krows := funext hS
  have hE : ∀ k, expOf (scoresOf a b) (ix2 r k) = weight qrow krows k := fun k => by
    rw [expOf_apply, hSf, hS]
    rfl
  unfold headOf
  rw [divf_apply, pvOf_apply, col_bcast64_apply, sumOf_apply]
  unfold attnRow
  simp only [hE, hV]

/-! ## The body's slices of its three blocks, read at an index -/

/-- The query block's 64 columns from `o`: entry (r, d) is the block at (0, r, o + d). -/
theorem q_slice_apply (v0 : Vec Ideal S1x512x128 .bf16) (o : Nat) (h : S512x128.Slices ![0, o] S512x64)
    (r : Fin 512) (d : Fin 64) (c : Fin 128) (hc : c.val = o + d.val) :
    extractStridedSlice S512x64 ![0, o] (k1_pay2 v0) h (ix2 r d) = v0 (ix3 (0 : Fin 1) r c) := by
  rw [slice2_axis1_apply o _ h r d c hc]
  unfold k1_pay2
  rw [shapeCast_1ab_ab_apply]

/-- The key block's 64 columns from `o`. -/
theorem k_slice_apply (v2 : Vec Ideal S1x2048x128 .bf16) (o : Nat) (h : S2048x128.Slices ![0, o] S2048x64)
    (k : Fin 2048) (d : Fin 64) (c : Fin 128) (hc : c.val = o + d.val) :
    extractStridedSlice S2048x64 ![0, o] (k1_pay3 v2) h (ix2 k d) = v2 (ix3 (0 : Fin 1) k c) := by
  rw [slice2_axis1_apply o _ h k d c hc]
  unfold k1_pay3
  rw [shapeCast_1ab_ab_apply]

/-- The value block's 64 columns from `o`. -/
theorem v_slice_apply (v4 : Vec Ideal S1x2048x128 .bf16) (o : Nat) (h : S2048x128.Slices ![0, o] S2048x64)
    (k : Fin 2048) (d : Fin 64) (c : Fin 128) (hc : c.val = o + d.val) :
    extractStridedSlice S2048x64 ![0, o] (k1_pay4 v4) h (ix2 k d) = v4 (ix3 (0 : Fin 1) k c) := by
  rw [slice2_axis1_apply o _ h k d c hc]
  unfold k1_pay4
  rw [shapeCast_1ab_ab_apply]

end Cert.KVal
end
-- ==== Proof.KVal.AttnPayload.lean ====
import proofs.«118081_j7292854469092_2_alg».proof.Proof.Gen.KernelIdeal.Skeleton
import proofs.«118081_j7292854469092_2_alg».proof.Proof.KVal.AttnHead
import Idealize.ShloMosaic.Lib.ValueIdx
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen

open Cert.Attn

/-! ## The body's payloads are the head arithmetic of their slices -/

/-- Head 0 (columns 0 … 63 of the three blocks). -/
theorem k1_pay5_eq (v0 : Vec Ideal S1x512x128 .bf16) (v2 v4 : Vec Ideal S1x2048x128 .bf16) :
    k1_pay5 (F := Ideal) v0 v2 v4
      = headOf (extractStridedSlice S512x64 ![0, 0] (k1_pay2 v0) slices_S512x128_o0_0_S512x64)
          (extractStridedSlice S2048x64 ![0, 0] (k1_pay3 v2) slices_S2048x128_o0_0_S2048x64)
          (extractStridedSlice S2048x64 ![0, 0] (k1_pay4 v4) slices_S2048x128_o0_0_S2048x64) := rfl

/-- Head 1 (columns 64 … 127): its weights, -/
theorem k1_pay6_eq (v0 : Vec Ideal S1x512x128 .bf16) (v2 : Vec Ideal S1x2048x128 .bf16) :
    k1_pay6 (F := Ideal) v0 v2
      = expOf (scoresOf (extractStridedSlice S512x64 ![0, 64] (k1_pay2 v0) slices_S512x128_o0_64_S512x64)
          (extractStridedSlice S2048x64 ![0, 64] (k1_pay3 v2) slices_S2048x128_o0_64_S2048x64)) := rfl

/-- their row sums, -/
theorem k1_pay7_eq (v0 : Vec Ideal S1x512x128 .bf16) (v2 : Vec Ideal S1x2048x128 .bf16) :
    k1_pay7 (F := Ideal) v0 v2 = sumOf (k1_pay6 (F := Ideal) v0 v2) := rfl

/-- and their product with the values. -/
theorem k1_pay8_eq (v0 : Vec Ideal S1x512x128 .bf16) (v2 v4 : Vec Ideal S1x2048x128 .bf16) :
    k1_pay8 (F := Ideal) v0 v2 v4
      = pvOf (k1_pay6 (F := Ideal) v0 v2)
          (extractStridedSlice S2048x64 ![0, 64] (k1_pay4 v4) slices_S2048x128_o0_64_S2048x64) := rfl

/-- So head 1's quotient, formed in the store's payload, is the head arithmetic too. -/
theorem head1_eq (v0 : Vec Ideal S1x512x128 .bf16) (v2 v4 : Vec Ideal S1x2048x128 .bf16) :
    divf (k1_pay8 (F := Ideal) v0 v2 v4) (broadcastTo S512x64 (k1_pay7 (F := Ideal) v0 v2) broadcasts_S512x1_S512x64)
      = headOf (extractStridedSlice S512x64 ![0, 64] (k1_pay2 v0) slices_S512x128_o0_64_S512x64)
          (extractStridedSlice S2048x64 ![0, 64] (k1_pay3 v2) slices_S2048x128_o0_64_S2048x64)
          (extractStridedSlice S2048x64 ![0, 64] (k1_pay4 v4) slices_S2048x128_o0_64_S2048x64) := by
  rw [k1_pay8_eq, k1_pay7_eq, k1_pay6_eq]
  rfl

/-! ## The stored block at an index -/

/-- The attention body's one store, read at (0, r, hh · 64 + d): head `hh` of the block pair, query row `r`, depth `d`
    — the specification's attention row of the query block's row, the key block's rows and the value block's column. -/
theorem attn_payload (v0 : Vec Ideal S1x512x128 .bf16) (v2 v4 : Vec Ideal S1x2048x128 .bf16) (r : Fin 512) (hh : Fin 2) (d : Fin 64) :
    k1_pay1 (F := Ideal) (k1_pay5 v0 v2 v4) (k1_pay7 v0 v2) (k1_pay8 v0 v2 v4) (ix3 (0 : Fin 1) r ⟨hh.val * 64 + d.val, by omega⟩)
      = attnRow (fun d' => v0 (ix3 0 r ⟨hh.val * 64 + d'.val, by omega⟩))
          (fun k d' => v2 (ix3 0 k ⟨hh.val * 64 + d'.val, by omega⟩))
          (fun k => v4 (ix3 0 k ⟨hh.val * 64 + d.val, by omega⟩)) := by
  unfold k1_pay1
  rw [shapeCast_ab_1ab_apply]
  match hh with
  | ⟨0, _⟩ =>
    rw [concatenate_pair_apply_left (t := S512x128) (s₁ := S512x64) (s₂ := S512x64) (1 : Fin 2) _ _
      concatenates_S512x64_S512x64_S512x128_d1 _ rfl (ix2 r d)
      (fun b => by
        match b with
        | ⟨0, _⟩ => rfl
        | ⟨1, _⟩ => show d.val = 0 * 64 + d.val; omega)]
    rw [k1_pay5_eq]
    exact headOf_apply _ _ _ r d _ _ _
      (fun d' => q_slice_apply v0 0 _ r d' _ (by show 0 * 64 + d'.val = 0 + d'.val; omega))
      (fun k d' => k_slice_apply v2 0 _ k d' _ (by show 0 * 64 + d'.val = 0 + d'.val; omega))
      (fun k => v_slice_apply v4 0 _ k d _ (by show 0 * 64 + d.val = 0 + d.val; omega))
  | ⟨1, _⟩ =>
    rw [concatenate_pair_apply_right (t := S512x128) (s₁ := S512x64) (s₂ := S512x64) (1 : Fin 2) _ _
      concatenates_S512x64_S512x64_S512x128_d1 _ rfl rfl (ix2 r d)
      (fun b hb => by
        match b with
        | ⟨0, _⟩ => rfl
        | ⟨1, _⟩ => exact absurd rfl hb)
      (by show d.val + 64 = 1 * 64 + d.val; omega)]
    rw [head1_eq]
    exact headOf_apply _ _ _ r d _ _ _
      (fun d' => q_slice_apply v0 64 _ r d' _ (by show 1 * 64 + d'.val = 64 + d'.val; omega))
      (fun k d' => k_slice_apply v2 64 _ k d' _ (by show 1 * 64 + d'.val = 64 + d'.val; omega))
      (fun k => v_slice_apply v4 64 _ k d _ (by show 1 * 64 + d.val = 64 + d.val; omega))

end Cert.KVal
end
-- ==== Proof.KVal.Final1.lean ====
import proofs.«118081_j7292854469092_2_alg».proof.Proof.KI.R1
import proofs.«118081_j7292854469092_2_alg».proof.Proof.KVal.AttnPayload
import Idealize.ShloMosaic.Lib.ValueIdx
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen

open Cert.KernelIdeal.Fr Idealize.ShloMosaic.TcCoe Idealize.SL.Sem Cert.Attn
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- Attention as one function of the packed projections `y` [4, 2048, 2304] (queries in columns 0 … 767, keys in
    768 … 1535, values in 1536 … 2303): at (n, q, cc), head `cc / 64`, the specification's attention row of the query row
    (n, q) over that head's 64 columns, the key rows of batch n over the same columns, and the value column `cc`. -/
def attnAt (y : S4x2048x2304.Idx → EReal) : S4x2048x768.Idx → EReal := fun i =>
  attnRow
    (fun d' => y (ix3 (⟨(i 0).val, (i 0).isLt⟩ : Fin 4) (⟨(i 1).val, (i 1).isLt⟩ : Fin 2048)
      (⟨(i 2).val / 64 * 64 + d'.val, by have h : (i 2).val < 768 := (i 2).isLt; omega⟩ : Fin 2304)))
    (fun k d' => y (ix3 (⟨(i 0).val, (i 0).isLt⟩ : Fin 4) k
      (⟨768 + (i 2).val / 64 * 64 + d'.val, by have h : (i 2).val < 768 := (i 2).isLt; omega⟩ : Fin 2304)))
    (fun k => y (ix3 (⟨(i 0).val, (i 0).isLt⟩ : Fin 4) k
      (⟨1536 + (i 2).val, by have h : (i 2).val < 768 := (i 2).isLt; omega⟩ : Fin 2304)))

/-- What the attention's result array ends holding. -/
def G1 (c : Dev nD) : S4x2048x768.Idx → EReal := attnAt (V c main_v8)

/-- The printed index maps over the 96 points: the query block moves with the output block; the key and value blocks
    sit at the output's batch, row block 0, and its column block moved 6 and 12 blocks along. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = win1_3.index t (2 : Fin 3) + 6
    ∧ win1_2.index t (0 : Fin 3) = win1_3.index t (0 : Fin 3) ∧ win1_2.index t (1 : Fin 3) = 0
    ∧ win1_2.index t (2 : Fin 3) = win1_3.index t (2 : Fin 3) + 12
    ∧ win1_3.index t (0 : Fin 3) ≤ 3 ∧ win1_3.index t (1 : Fin 3) ≤ 3 ∧ win1_3.index t (2 : Fin 3) ≤ 5 :=
  (by decide +kernel : ∀ t : Fin grid1.N, _)

/-- Every output block is some point's. -/
theorem idx_onto1 : ∀ (q0 : Fin 4) (q1 : Fin 4) (q2 : Fin 6), ∃ t : Fin cfg1.N, win1_3.index t = ![q0.val, q1.val, q2.val] :=
  (by decide +kernel : ∀ (q0 : Fin 4) (q1 : Fin 4) (q2 : Fin 6), ∃ t : Fin grid1.N, win1_3.index t = ![q0.val, q1.val, q2.val])

/-- The query block at point `t`, read in the packed array. -/
theorem iblk1_0_apply (c : Dev nD) (t : Fin cfg1.N) (x : S1x512x128.Idx) (k : S4x2048x2304.Idx)
    (hk0 : (k 0).val = win1_3.index t (0 : Fin 3) * 1 + (x 0).val)
    (hk1 : (k 1).val = win1_3.index t (1 : Fin 3) * 512 + (x 1).val)
    (hk2 : (k 2).val = win1_3.index t (2 : Fin 3) * 128 + (x 2).val) :
    (iblk1 V c 0 t : Vec Ideal S1x512x128 .bf16) x = (V c main_v8 : S4x2048x2304.Idx → EReal) k := by
  obtain ⟨e0, e1, e2, -⟩ := idx_facts1 t
  unfold iblk1
  rw [View.read_apply]
  show V c main_v8 _ = V c main_v8 _
  congr 1
  funext a
  apply Fin.ext
  match a with
  | ⟨0, _⟩ => show win1_0.index t (0 : Fin 3) * 1 + 1 * (x 0).val = (k 0).val; rw [e0, hk0]; omega
  | ⟨1, _⟩ => show win1_0.index t (1 : Fin 3) * 512 + 1 * (x 1).val = (k 1).val; rw [e1, hk1]; omega
  | ⟨2, _⟩ => show win1_0.index t (2 : Fin 3) * 128 + 1 * (x 2).val = (k 2).val; rw [e2, hk2]; omega

/-- The key block at point `t`, read in the packed array. -/
theorem iblk1_1_apply (c : Dev nD) (t : Fin cfg1.N) (x : S1x2048x128.Idx) (k : S4x2048x2304.Idx)
    (hk0 : (k 0).val = win1_3.index t (0 : Fin 3) * 1 + (x 0).val)
    (hk1 : (k 1).val = (x 1).val)
    (hk2 : (k 2).val = (win1_3.index t (2 : Fin 3) + 6) * 128 + (x 2).val) :
    (iblk1 V c 1 t : Vec Ideal S1x2048x128 .bf16) x = (V c main_v8 : S4x2048x2304.Idx → EReal) k := by
  obtain ⟨-, -, -, e0, e1, e2, -⟩ := idx_facts1 t
  unfold iblk1
  rw [View.read_apply]
  show V c main_v8 _ = V c main_v8 _
  congr 1
  funext a
  apply Fin.ext
  match a with
  | ⟨0, _⟩ => show win1_1.index t (0 : Fin 3) * 1 + 1 * (x 0).val = (k 0).val; rw [e0, hk0]; omega
  | ⟨1, _⟩ => show win1_1.index t (1 : Fin 3) * 2048 + 1 * (x 1).val = (k 1).val; rw [e1, hk1]; omega
  | ⟨2, _⟩ => show win1_1.index t (2 : Fin 3) * 128 + 1 * (x 2).val = (k 2).val; rw [e2, hk2]; omega

/-- The value block at point `t`, read in the packed array. -/
theorem iblk1_2_apply (c : Dev nD) (t : Fin cfg1.N) (x : S1x2048x128.Idx) (k : S4x2048x2304.Idx)
    (hk0 : (k 0).val = win1_3.index t (0 : Fin 3) * 1 + (x 0).val)
    (hk1 : (k 1).val = (x 1).val)
    (hk2 : (k 2).val = (win1_3.index t (2 : Fin 3) + 12) * 128 + (x 2).val) :
    (iblk1 V c 2 t : Vec Ideal S1x2048x128 .bf16) x = (V c main_v8 : S4x2048x2304.Idx → EReal) k := by
  obtain ⟨-, -, -, -, -, -, e0, e1, e2, -⟩ := idx_facts1 t
  unfold iblk1
  rw [View.read_apply]
  show V c main_v8 _ = V c main_v8 _
  congr 1
  funext a
  apply Fin.ext
  match a with
  | ⟨0, _⟩ => show win1_2.index t (0 : Fin 3) * 1 + 1 * (x 0).val = (k 0).val; rw [e0, hk0]; omega
  | ⟨1, _⟩ => show win1_2.index t (1 : Fin 3) * 2048 + 1 * (x 1).val = (k 1).val; rw [e1, hk1]; omega
  | ⟨2, _⟩ => show win1_2.index t (2 : Fin 3) * 128 + 1 * (x 2).val = (k 2).val; rw [e2, hk2]; omega

/-- At point `t`, the attention row of the three blocks at (r, head hh, depth d) is `attnAt` of the packed array at any
    index `E` with the output block's coordinates. -/
theorem point1 (c : Dev nD) (t : Fin cfg1.N) (r : Fin 512) (hh : Fin 2) (d : Fin 64) (E : S4x2048x768.Idx)
    (h0 : (E 0).val = win1_3.index t (0 : Fin 3))
    (h1 : (E 1).val = win1_3.index t (1 : Fin 3) * 512 + r.val)
    (h2 : (E 2).val = win1_3.index t (2 : Fin 3) * 128 + (hh.val * 64 + d.val)) :
    attnRow (fun d' => (iblk1 V c 0 t : Vec Ideal S1x512x128 .bf16) (ix3 (0 : Fin 1) r ⟨hh.val * 64 + d'.val, by omega⟩))
        (fun k d' => (iblk1 V c 1 t : Vec Ideal S1x2048x128 .bf16) (ix3 (0 : Fin 1) k ⟨hh.val * 64 + d'.val, by omega⟩))
        (fun k => (iblk1 V c 2 t : Vec Ideal S1x2048x128 .bf16) (ix3 (0 : Fin 1) k ⟨hh.val * 64 + d.val, by omega⟩))
      = attnAt (V c main_v8) E := by
  unfold attnAt
  refine congr (congr (congrArg attnRow ?_) ?_) ?_
  · funext d'
    refine iblk1_0_apply V c t _ _ ?_ ?_ ?_
    · show (E 0).val = win1_3.index t (0 : Fin 3) * 1 + 0; omega
    · show (E 1).val = win1_3.index t (1 : Fin 3) * 512 + r.val; exact h1
    · show (E 2).val / 64 * 64 + d'.val = win1_3.index t (2 : Fin 3) * 128 + (hh.val * 64 + d'.val); omega
  · funext k d'
    refine iblk1_1_apply V c t _ _ ?_ ?_ ?_
    · show (E 0).val = win1_3.index t (0 : Fin 3) * 1 + 0; omega
    · rfl
    · show 768 + (E 2).val / 64 * 64 + d'.val = (win1_3.index t (2 : Fin 3) + 6) * 128 + (hh.val * 64 + d'.val); omega
  · funext k
    refine iblk1_2_apply V c t _ _ ?_ ?_ ?_
    · show (E 0).val = win1_3.index t (0 : Fin 3) * 1 + 0; omega
    · rfl
    · show 1536 + (E 2).val = (win1_3.index t (2 : Fin 3) + 12) * 128 + (hh.val * 64 + d.val); omega

/-- What point `t` writes back is block `t` of `G1`. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz3]
  simp only [View.ld_unit_zero (S := S1x512x128) hz3, View.ld_unit_zero (S := S1x2048x128) hz3]
  funext j
  obtain ⟨u, r, cj, rfl⟩ : ∃ (u : Fin 1) (r : Fin 512) (cj : Fin 128), j = ix3 u r cj := ⟨j 0, j 1, j 2, eq_ix3 j⟩
  obtain rfl : u = 0 := Fin.ext (by omega)
  obtain ⟨hh, d, rfl⟩ : ∃ (hh : Fin 2) (d : Fin 64), cj = ⟨hh.val * 64 + d.val, by omega⟩ :=
    ⟨⟨cj.val / 64, by omega⟩, ⟨cj.val % 64, by omega⟩, Fin.ext (by show cj.val = cj.val / 64 * 64 + cj.val % 64; omega)⟩
  refine (attn_payload (iblk1 V c 0 t) (iblk1 V c 1 t) (iblk1 V c 2 t) r hh d).trans ?_
  rw [View.read_apply]
  refine point1 V c t r hh d _ ?_ ?_ ?_
  · show win1_3.index t (0 : Fin 3) * 1 + 1 * 0 = _; omega
  · show win1_3.index t (1 : Fin 3) * 512 + 1 * r.val = _; omega
  · show win1_3.index t (2 : Fin 3) * 128 + 1 * (hh.val * 64 + d.val) = _; omega

/-- An index of the result array is in point `t`'s block iff each coordinate is in the block's range on its axis. -/
theorem mem_blk1 (t : Fin cfg1.N) (i : S4x2048x768.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v9).slice (win1_3.rect t)).set ↔ _
  rw [View.set_slice_whole, Rect.mem_set_unit]
  exact Iff.rfl

/-- The 96 blocks cover the result array: (n, q, cc) is in block (n, q / 512, cc / 128). -/
theorem cover1 (i : S4x2048x768.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 768 := (i 2).isLt
  obtain ⟨t, ht⟩ := idx_onto1 ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_blk1]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 128 ≤ (i 2).val ∧ (i 2).val < win1_3.index t (2 : Fin 3) * 128 + 128
    omega

/-- The attention's result array after the second call: `attnAt` of the packed projections the call found. -/
theorem final1 (c : Dev nD) : (dat1 (F := Ideal) V c).arrAt 3 cfg1.N = attnAt (V c main_v8) :=
  (dat1 V c).arrAt_eq_of_cover 3 (G1 V c) (fun t _ => flushed1_eq V c t) (cover1)

end Cert.KVal
end
-- ==== Proof.KVal.KernelSpec.lean ====
/-
  The kernel's result is the specification.

  The attention call's result array is the row-attention of the packed projections it finds (columns 0 … 767 the
  queries, 768 … 1535 the keys, 1536 … 2303 the values); that packed array is the host's reshape of the projection
  call's result; the projection call's result is the flattened activations against the joined weights plus the joined
  bias; and those three operands are host layout operations of the seven arguments.  Read at an index, entry
  (n, s, t·768 + o) of the packed array is  ∑_d x(n, s, d) · W_t(o, d) + b_t(o):  the specification's projection.
-/
import proofs.«118081_j7292854469092_2_alg».proof.Proof.KI.Run
import proofs.«118081_j7292854469092_2_alg».proof.Proof.KVal.HostGlue
import proofs.«118081_j7292854469092_2_alg».proof.Proof.KVal.Final0
import proofs.«118081_j7292854469092_2_alg».proof.Proof.KVal.Final1
import proofs.«118081_j7292854469092_2_alg».proof.Proof.Spec

set_option maxRecDepth 16384

noncomputable section

namespace Cert.KVal

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The arrays the projection call finds -/

/-- The activations, flattened. -/
theorem found_x : (Fr.V1 m ρ c main_v0 : S8192x768.Idx → EReal)
    = shapeCast S8192x768 (m ((c : Thread nD τ).loc main_arg0)) shapeCasts_S4x2048x768_S8192x768 := by
  show StableHlo.after hostOps0 (Fr.W0 m ρ c) (Proc.devRef .tc main_v0) = _
  after_results
  rfl

/-- The three weights, each transposed, joined along the columns and narrowed. -/
theorem found_w : (Fr.V1 m ρ c main_v5 : S768x2304.Idx → EReal)
    = (truncf .bf16 (concatenate S768x2304 1
        [⟨S768x768, transpose S768x768 [1, 0] (m ((c : Thread nD τ).loc main_arg1)) transposes_S768x768_S768x768_1_0⟩,
         ⟨S768x768, transpose S768x768 [1, 0] (m ((c : Thread nD τ).loc main_arg3)) transposes_S768x768_S768x768_1_0⟩,
         ⟨S768x768, transpose S768x768 [1, 0] (m ((c : Thread nD τ).loc main_arg5)) transposes_S768x768_S768x768_1_0⟩]
        concatenates_S768x768_S768x768_S768x768_S768x2304_d1 : FVec Ideal S768x2304 .f32) bitsLt_bf16_f32
          : FVec Ideal S768x2304 .bf16) := by
  show StableHlo.after hostOps0 (Fr.W0 m ρ c) (Proc.devRef .tc main_v5) = _
  after_results
  rfl

/-- The three biases, joined. -/
theorem found_b : (Fr.V1 m ρ c main_v6 : S2304.Idx → EReal)
    = concatenate S2304 0 [⟨S768, m ((c : Thread nD τ).loc main_arg2)⟩, ⟨S768, m ((c : Thread nD τ).loc main_arg4)⟩,
        ⟨S768, m ((c : Thread nD τ).loc main_arg6)⟩] concatenates_S768_S768_S768_S2304_d0 := by
  show StableHlo.after hostOps0 (Fr.W0 m ρ c) (Proc.devRef .tc main_v6) = _
  after_results
  rfl

/-! ## The array the attention call finds -/

/-- The packed projections: the host's reshape of the projection call's result. -/
theorem found_qkv : (Fr.V3 m ρ c main_v8 : S4x2048x2304.Idx → EReal)
    = shapeCast S4x2048x2304 (projAt (Fr.V1 m ρ c main_v0) (Fr.V1 m ρ c main_v5) (Fr.V1 m ρ c main_v6))
        shapeCasts_S8192x2304_S4x2048x2304 := by
  have e : (Fr.V3 m ρ c main_v8 : S4x2048x2304.Idx → EReal)
      = shapeCast S4x2048x2304 (Fr.W2 m ρ c (Proc.devRef .tc main_v7) : S8192x2304.Idx → EReal)
          shapeCasts_S8192x2304_S4x2048x2304 := by
    show StableHlo.after hostOps1 (Fr.W2 m ρ c) (Proc.devRef .tc main_v8) = _
    after_results
    rfl
  have e7 : (Fr.W2 m ρ c (Proc.devRef .tc main_v7) : S8192x2304.Idx → EReal)
      = projAt (Fr.V1 m ρ c main_v0) (Fr.V1 m ρ c main_v5) (Fr.V1 m ρ c main_v6) :=
    (Fr.W2_arr m ρ c 3).trans (final0 (Fr.V1 m ρ) c)
  rw [e, e7]

/-- Entry (n, s, j) of the reshaped projection of flattened activations: row (n, s) of the activations against column
    j of the weights, plus the bias at j. -/
theorem packed_entry (x : S4x2048x768.Idx → EReal) (w : S768x2304.Idx → EReal) (b : S2304.Idx → EReal)
    (h1 : S4x2048x768.ShapeCasts S8192x768) (h2 : S8192x2304.ShapeCasts S4x2048x2304)
    (n : Fin 4) (s : Fin 2048) (j : Fin 2304) :
    shapeCast S4x2048x2304 (projAt (shapeCast S8192x768 x h1) w b) h2 (ix3 n s j)
      = (∑ d : Fin 768, x (ix3 n s d) * w (ix2 d j)) + b (ix1 j) := by
  rw [reshape_out_apply]
  unfold projAt
  refine congrArg (· + _) (Finset.sum_congr rfl fun d _ => congrArg (· * _) ?_)
  exact reshape_x_apply x h1 n s d

theorem q_lt (o : Fin 768) : o.val < 2304 := by have := o.isLt; omega
theorem k_lt (o : Fin 768) : 768 + o.val < 2304 := by have := o.isLt; omega
theorem v_lt (o : Fin 768) : 1536 + o.val < 2304 := by have := o.isLt; omega

/-- Columns 0 … 767: the query projection. -/
theorem qkv_q (n : Fin 4) (s : Fin 2048) (o : Fin 768) (j : Fin 2304) (hj : j.val = o.val) :
    (Fr.V3 m ρ c main_v8 : S4x2048x2304.Idx → EReal) (ix3 n s j)
      = Cert.Attn.proj (m ((c : Thread nD τ).loc main_arg0)) (m ((c : Thread nD τ).loc main_arg1))
          (m ((c : Thread nD τ).loc main_arg2)) n s o := by
  obtain rfl : j = ⟨o.val, q_lt o⟩ := Fin.ext hj
  rw [found_qkv, found_x, found_w, found_b, packed_entry, concat_b_apply0]
  unfold Cert.Attn.proj
  refine congrArg (· + _) (Finset.sum_congr rfl fun d _ => ?_)
  rw [wcat_apply0]

/-- Columns 768 … 1535: the key projection. -/
theorem qkv_k (n : Fin 4) (s : Fin 2048) (o : Fin 768) (j : Fin 2304) (hj : j.val = 768 + o.val) :
    (Fr.V3 m ρ c main_v8 : S4x2048x2304.Idx → EReal) (ix3 n s j)
      = Cert.Attn.proj (m ((c : Thread nD τ).loc main_arg0)) (m ((c : Thread nD τ).loc main_arg3))
          (m ((c : Thread nD τ).loc main_arg4)) n s o := by
  obtain rfl : j = ⟨768 + o.val, k_lt o⟩ := Fin.ext hj
  rw [found_qkv, found_x, found_w, found_b, packed_entry, concat_b_apply1]
  unfold Cert.Attn.proj
  refine congrArg (· + _) (Finset.sum_congr rfl fun d _ => ?_)
  rw [wcat_apply1]

/-- Columns 1536 … 2303: the value projection. -/
theorem qkv_v (n : Fin 4) (s : Fin 2048) (o : Fin 768) (j : Fin 2304) (hj : j.val = 1536 + o.val) :
    (Fr.V3 m ρ c main_v8 : S4x2048x2304.Idx → EReal) (ix3 n s j)
      = Cert.Attn.proj (m ((c : Thread nD τ).loc main_arg0)) (m ((c : Thread nD τ).loc main_arg5))
          (m ((c : Thread nD τ).loc main_arg6)) n s o := by
  obtain rfl : j = ⟨1536 + o.val, v_lt o⟩ := Fin.ext hj
  rw [found_qkv, found_x, found_w, found_b, packed_entry, concat_b_apply2]
  unfold Cert.Attn.proj
  refine congrArg (· + _) (Finset.sum_congr rfl fun d _ => ?_)
  rw [wcat_apply2]

/-! ## The result -/

/-- The attention call's result array is the specification of the seven arguments. -/
theorem kernel_result :
    (Fr.dat1 (F := Ideal) (Fr.V3 m ρ) c).arrAt 3 cfg1.N
      = Cert.Attn.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [final1]
  funext i
  have hi2 : (i 2).val < 768 := (i 2).isLt
  unfold attnAt Cert.Attn.result Cert.Attn.attn
  congr 1
  · funext d'
    exact qkv_q m ρ c _ _ (Cert.Attn.col ⟨(i 2).val / 64, Nat.div_lt_of_lt_mul (i 2).isLt⟩ d') _ rfl
  · funext k d'
    refine qkv_k m ρ c _ _ (Cert.Attn.col ⟨(i 2).val / 64, Nat.div_lt_of_lt_mul (i 2).isLt⟩ d') _ ?_
    show 768 + (i 2).val / 64 * 64 + d'.val = 768 + ((i 2).val / 64 * 64 + d'.val)
    omega
  · funext k
    refine qkv_v m ρ c _ _
      (Cert.Attn.col ⟨(i 2).val / 64, Nat.div_lt_of_lt_mul (i 2).isLt⟩ ⟨(i 2).val % 64, Nat.mod_lt _ (by decide)⟩) _ ?_
    show 1536 + (i 2).val = 1536 + ((i 2).val / 64 * 64 + (i 2).val % 64)
    omega

end Cert.KVal

end
-- ==== Proof.lean ====
/-
  Self-attention over fused projections, against its plain reference, at the extended reals.

  The kernel is two calls.  The first computes the three linear projections of the hidden states at once,
  `x · [Wqᵀ | Wkᵀ | Wvᵀ] + [bq | bk | bv]`, row tile by row tile.  The second, for every batch, tile of 512 query rows and
  pair of heads, reads the query tile and the pair's whole key and value columns out of that one packed array and stores,
  for each head, the scores `q · kᵀ / 8`, their row maximum, the weights `exp(score − maximum)`, and the quotient of the
  weighted sum of the values by the sum of the weights.

  The reference computes each projection as `zg · (z / zg)`, where `z = x · Wᵀ + b` and `zg` is the same with the
  positive parts of `W` and `b` amplified; where every input is finite and no `zg` is zero — the precondition — this is
  `z`.  Its softmax divides each weight by the sum before summing against the values; the weights being positive reals,
  that is the kernel's quotient of sums.  Proof/Spec.lean states the common function; Proof/RefSide proves the reference
  computes it, Proof/KVal that the kernel's two calls do; Proof/KI and Proof/KB run the kernel (at the extended reals and at
  words) through its host operations and its two calls, the second of which reads one array through three windows.
-/
import proofs.«118081_j7292854469092_2_alg».proof.Defs
import proofs.«118081_j7292854469092_2_alg».proof.Proof.KI.Claims
import proofs.«118081_j7292854469092_2_alg».proof.Proof.KB.Claims
import proofs.«118081_j7292854469092_2_alg».proof.Proof.RefSide
import proofs.«118081_j7292854469092_2_alg».proof.Proof.KVal.KernelSpec
import proofs.«118081_j7292854469092_2_alg».proof.Proof.Gen.Kernel
import proofs.«118081_j7292854469092_2_alg».proof.Proof.Gen.KernelIdeal
import proofs.«118081_j7292854469092_2_alg».proof.Proof.Gen.ReferenceIdeal
import proofs.«118081_j7292854469092_2_alg».proof.Proof.Gen.Pre_finite_inputs
import Idealize.ShloMosaic.Adequacy
import Idealize.ShloMosaic.Init

noncomputable section

namespace Cert.Proof

open Idealize.ShloMosaic Idealize.SL.Sem

/-- The word-level kernel runs to the end, faults nowhere, and leaves its arguments as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both idealized programs end with the result array at the specification of the argument arrays: the kernel because
    its two calls compute exactly that function, the reference because — every input finite and no divisor `zg` zero —
    each `zg · (z / zg)` is `z` and its normalised softmax sum is the kernel's quotient of sums. -/
theorem algebraic : Cert.algebraic_KernelIdeal_ReferenceIdeal := by
  intro m ρ m' ρ' hpre hagree
  refine ⟨fun c => Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KVal.kernel_result m ρ c), (h c).2⟩)
      (Cert.KernelIdeal.Fr.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    have hpre' : Cert.Pre_finite_inputs.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = fun _ => 1#1 := by
      rw [e0, e1, e2, e3, e4, e5, e6]; exact hpre c
    rw [Cert.RefSide.ref_result_run m' c hpre', e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
